-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S512x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) (main_arg6 : FVec F S512x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S400x10000 : Shape := ⟨2, ![400, 10000]⟩
abbrev S400x256 : Shape := ⟨2, ![400, 256]⟩

abbrev nBuf : Space → Nat
  | .hbm => 13
  | .vmem => 14
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S10000x256, .bf16⟩
  | .hbm, ⟨12, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S512x256, .f32⟩
  | .local _ .vmem, ⟨8, _⟩ => ⟨S1x256, .f32⟩
  | .local _ .vmem, ⟨9, _⟩ => ⟨S400x256, .f32⟩
  | .local _ .vmem, ⟨10, _⟩ => ⟨S400x256, .f32⟩
  | .local _ .vmem, ⟨11, _⟩ => ⟨S10000x256, .bf16⟩
  | .local _ .vmem, ⟨12, _⟩ => ⟨S10000x256, .bf16⟩
  | .local _ .vmem, ⟨13, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def k0_off2 (i : grid0.Coords) : Fin 2 → Nat :=
  let c24_i32 : BitVec 32 := 24#32
  let arg1 : BitVec 32 := BitVec.ofNat 32 (i 1).val
  let v13 : BitVec 32 := Scalar.subi c24_i32 arg1
  let c400_i32 : BitVec 32 := 400#32
  let v24 : BitVec 32 := Scalar.muli v13 c400_i32
  let v25 : Index := Scalar.indexCast v24
  let c0_13 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c24_i32 : BitVec 32 := 24#32
  let v2 : BitVec 32 := Scalar.subi c24_i32 arg1
  let v3 : BitVec 32 := Scalar.muli arg0 v2
  let v4 : BitVec 32 := Scalar.addi v1 v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi c24_i32 arg1
  let v1 : BitVec 32 := Scalar.muli arg0 v0
  let c0_i32 : BitVec 32 := 0#32
  let c0_i32_0 : BitVec 32 := 0#32
  ![v1.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S256_S1x256 : S256.ShapeCasts S1x256
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S256x256_S256x256_0_0 : ∀ a, (![0, 0] : Fin 2 → Nat) a + S256x256.size a ≤ S256x256.size a
  h_S256x256 : 0 < S256x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  h_S400x256 : 0 < S400x256.numel
  shapeCasts_S400x256_S400x256 : S400x256.ShapeCasts S400x256
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  inb_S400x256_S400x256_0_0 : ∀ a, (![0, 0] : Fin 2 → Nat) a + S400x256.size a ≤ S400x256.size a
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ (k0_h2 : k0_cond2 i = 1#1), ∀ a, (k0_off1 i) a + S400x256.size a ≤ S10000x256.size a
  k0_off1_packedbf16 : ∀ i : grid0.Coords, ∀ (k0_h2 : k0_cond2 i = 1#1), (Rect.unit (s := S10000x256) (k0_off1 i) S400x256.size (k0_off1_inb i k0_h2)).PackedRows (EltTy.packing .bf16)
  k0_off2_inb : ∀ i : grid0.Coords, ∀ (k0_h3 : k0_cond3 i = 1#1), ∀ a, (k0_off2 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x256.size a ≤ S10000x256.size a
  hwx0_8 : ∀ i : grid0.Coords, EltTy.bits .f32 = 32 ∨ (Rect.block (s := S10000x256) S400x256.size (cc0_transform_8 i) (hinb0_8 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S400x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S10000x512 : Shape := ⟨2, ![10000, 512]⟩

abbrev nBuf : Space → Nat
  | .hbm => 29
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S10000x256, .f32⟩
  | .hbm, ⟨9, _⟩ => ⟨S10000x256, .f32⟩
  | .hbm, ⟨10, _⟩ => ⟨S1x256, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S10000x256, .f32⟩
  | .hbm, ⟨18, _⟩ => ⟨S1x256, .f32⟩
  | .hbm, ⟨19, _⟩ => ⟨S10000x256, .f32⟩
  | .hbm, ⟨20, _⟩ => ⟨S10000x256, .f32⟩
  | .hbm, ⟨21, _⟩ => ⟨S_, .f32⟩
  | .hbm, ⟨22, _⟩ => ⟨S10000x256, .f32⟩
  | .hbm, ⟨23, _⟩ => ⟨S10000x256, .f32⟩
  | .hbm, ⟨24, _⟩ => ⟨S10000x512, .f32⟩
  | .hbm, ⟨25, _⟩ => ⟨S10000x256, .f32⟩
  | .hbm, ⟨26, _⟩ => ⟨S1x256, .f32⟩
  | .hbm, ⟨27, _⟩ => ⟨S10000x256, .f32⟩
  | .hbm, ⟨28, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  concatenates_S10000x256_S10000x256_S10000x512_d1 : Shape.Concatenates [S10000x256, S10000x256] S10000x512 1
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.BBase.lean ====
/-
  What the three control cases of the kernel body share: which grid points take which branch, the staging and scratch
  buffers the body is called with, and the region's invariant spelt out.

  The grid has 2 × 25 = 50 points, visited in order `t = 25·l + i`. The body's first branch (`l = 0` and `i = 0`) is taken
  at point 0 only; its second (`l = 0`) at the points below 25, its third (`l = 1`) from point 25 on.
-/
import proofs.«166813_g11562051961570_week1_w4_920_18_alg».proof.Proof.Gen.Kernel.Frame
import proofs.«166813_g11562051961570_week1_w4_920_18_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

/-- The zero offsets of a rank-2 rectangle, however spelt. -/
theorem hz2 : (![0, 0] : Fin 2 → ℕ) = fun _ => 0 := by funext a; fin_cases a <;> rfl

/-! ## The three branches over the grid -/

/-- The first branch's condition: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atStart_iff : ∀ t : Fin cfg0.N, atStart (grid0.coords t) ↔ t.val = 0 :=
  (by decide +kernel : ∀ t : Fin grid0.N, atStart (grid0.coords t) ↔ t.val = 0)

/-- The second branch's condition: the first pass over the row blocks (`l = 0`). -/
abbrev passOne (i : grid0.Coords) : Prop := k0_cond2 i = 1#1
/-- It holds at the points below 25. -/
theorem passOne_iff : ∀ t : Fin cfg0.N, passOne (grid0.coords t) ↔ t.val < 25 :=
  (by decide +kernel : ∀ t : Fin grid0.N, passOne (grid0.coords t) ↔ t.val < 25)

/-- The third branch's condition: the second pass (`l = 1`). -/
abbrev passTwo (i : grid0.Coords) : Prop := k0_cond3 i = 1#1
/-- It holds from point 25 on. -/
theorem passTwo_iff : ∀ t : Fin cfg0.N, passTwo (grid0.coords t) ↔ 25 ≤ t.val :=
  (by decide +kernel : ∀ t : Fin grid0.N, passTwo (grid0.coords t) ↔ 25 ≤ t.val)

/-- The second coordinate of point `t` is `t mod 25`. -/
theorem coord_one : ∀ t : Fin cfg0.N, ((grid0.coords t) 1).val = t.val % 25 :=
  (by decide +kernel : ∀ t : Fin grid0.N, ((grid0.coords t) 1).val = t.val % 25)

/-! ## The input windows are never idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-! ## The buffers the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x256 .f32 := win0_8.stage (cfg0.slots t 8)
abbrev hs8 (t : Fin cfg0.N) : (ms8 t).IsWhole := hstage0_8 ((cfg0.slots t 8).cast nbuf0_8)
/-- The three scratch buffers: `x · W0`, then `h1 · W1` and `h1 · Wp[0:256]` row block by row block. -/
abbrev sc0 : Memref sig .tc .vmem S10000x256 .bf16 := Memref.whole cc0_scratch0
abbrev sc1 : Memref sig .tc .vmem S10000x256 .bf16 := Memref.whole cc0_scratch1
abbrev sc2 : Memref sig .tc .vmem S10000x256 .bf16 := Memref.whole cc0_scratch2
theorem hsc0 : (sc0).IsWhole := Memref.isWhole_whole _
theorem hsc1 : (sc1).IsWhole := Memref.isWhole_whole _
theorem hsc2 : (sc2).IsWhole := Memref.isWhole_whole _

/-! ## Parts of a staged block the body loads -/

/-- Rows `0 … 255` of the head's weights, as the body loads them from the staged block. -/
abbrev topRows (x6 : Vec F S512x256 .f32) : Vec F S256x256 .f32 :=
  View.ld x6 (Rect.unit (s := S512x256) ![0, 0] S256x256.size inb_S512x256_S256x256_0_0)

/-- Rows `256 … 511` of the head's weights. -/
abbrev botRows (x6 : Vec F S512x256 .f32) : Vec F S256x256 .f32 :=
  View.ld x6 (Rect.unit (s := S512x256) ![256, 0] S256x256.size inb_S512x256_S256x256_256_0)

/-- The 400 rows of a 10000 × 256 buffer that the second pass reads at grid point `i`: rows `400 (24 - i₁) …`. -/
abbrev rowBlock (i : grid0.Coords) (h : passTwo i) (y : Vec F S10000x256 .bf16) : Vec F S400x256 .bf16 :=
  View.ld y (Rect.unit (s := S10000x256) (k0_off2 i) S400x256.size (k0_off2_inb i h))

/-- What the region hands the body besides the windows: the three scratch buffers at some contents and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel.Hand

end
-- ==== Proof.BDefs.lean ====
/-
  The quantities the kernel's run is stated over, at any float instance.

  Writing `blk w t` for window `w`'s block of its array at grid point `t` (the propagation matrix's row block for window 0,
  the whole array for the others):
  * `prodXW` is what the first point stores into the first scratch buffer: the product of the features and `W0`;
  * `hidAt t p q`, `headAt t p q` are entry `(p, q)` of what point `t` of the first pass stores into rows `400 t …` of the
    second and third scratch buffers (row block `t` of `h1 · W1` and of `h1 · Wp[0:256]`), and `hidAll`, `headAll` the
    10000 × 256 arrays those 25 blocks make up: row `r` is row `r mod 400` of block `r / 400`;
  * `outAt t` is what point `t` of the second pass stores into the output's staging buffer, and `outAll` the 10000 × 256
    array its 25 blocks make up: the second pass visits row block `24 - i` at its `i`-th point `t = 25 + i`, so row `r`
    is row `r mod 400` of what point `49 - r / 400` stores.
  The region's invariant after `n ≥ 1` points: the first scratch buffer holds `prodXW`, and the second and third agree
  with `hidAll`, `headAll` on the rows below `400 n` (all rows once `n ≥ 25`). What the body leaves in the output's staging
  buffer is constrained only in the second pass, where it is `outAt t`; in the first pass the body does not touch it.
-/
import proofs.«166813_g11562051961570_week1_w4_920_18_alg».proof.Proof.BBase
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The grid has 50 points. -/
theorem N50 : cfg0.N = 50 := N_0

/-- The grid's first point. -/
abbrev pt0 : Fin cfg0.N := ⟨0, by rw [N50]; omega⟩

/-- What the first point stores into the first scratch buffer. -/
def prodXW (c : Dev nD) : Vec F S10000x256 .bf16 := k0_pay2 (iblk m c 2 pt0) (iblk m c 1 pt0)

/-- Entry `(p, q)` of what point `t` of the first pass stores into the second scratch buffer. -/
def hidAt (c : Dev nD) (t : Fin cfg0.N) (p : Fin 400) (q : Fin 256) : F .bf16 :=
  k0_pay4 (iblk m c 0 t) (prodXW m c) (iblk m c 3 t) (iblk m c 4 t) (ValueIdx.ix2 p q)

/-- Entry `(p, q)` of what point `t` of the first pass stores into the third scratch buffer. -/
def headAt (c : Dev nD) (t : Fin cfg0.N) (p : Fin 400) (q : Fin 256) : F .bf16 :=
  k0_pay5 (iblk m c 0 t) (prodXW m c) (iblk m c 3 t) (topRows (iblk m c 6 t)) (ValueIdx.ix2 p q)

theorem row_lt (j : S10000x256.Idx) : (j 0).val < 10000 := (j 0).isLt
theorem col_lt (j : S10000x256.Idx) : (j 1).val < 256 := (j 1).isLt

/-- The point of the first pass that stores row `r`: `r / 400`. -/
def ptOfRow (j : S10000x256.Idx) : Fin cfg0.N := ⟨(j 0).val / 400, by have := row_lt j; rw [N50]; omega⟩
/-- The point of the second pass that stores row `r`: `49 - r / 400`. -/
def ptOfRow2 (j : S10000x256.Idx) : Fin cfg0.N := ⟨49 - (j 0).val / 400, by rw [N50]; omega⟩
/-- Row `r`'s place within its block: `r mod 400`. -/
def inBlock (j : S10000x256.Idx) : Fin 400 := ⟨(j 0).val % 400, Nat.mod_lt _ (by omega)⟩
def colOf (j : S10000x256.Idx) : Fin 256 := ⟨(j 1).val, col_lt j⟩

/-- The second scratch buffer once the first pass is over: 25 row blocks of 400 rows. -/
def hidAll (c : Dev nD) : Vec F S10000x256 .bf16 := fun j => hidAt m c (ptOfRow j) (inBlock j) (colOf j)
/-- The third scratch buffer once the first pass is over. -/
def headAll (c : Dev nD) : Vec F S10000x256 .bf16 := fun j => headAt m c (ptOfRow j) (inBlock j) (colOf j)

/-- Row `400 t + p` of the second scratch buffer's final contents is row `p` of what point `t` stored. -/
theorem hidAll_block (c : Dev nD) (t : Fin cfg0.N) (ht : t.val < 25) (p : Fin 400) (q : Fin 256)
    (j : S10000x256.Idx) (hj0 : (j 0).val = 400 * t.val + p.val) (hj1 : (j 1).val = q.val) :
    hidAll m c j = hidAt m c t p q := by
  unfold hidAll
  have e1 : ptOfRow j = t := Fin.ext (by show (j 0).val / 400 = t.val; have := p.isLt; omega)
  have e2 : inBlock j = p := Fin.ext (by show (j 0).val % 400 = p.val; have := p.isLt; omega)
  have e3 : colOf j = q := Fin.ext hj1
  rw [e1, e2, e3]

theorem headAll_block (c : Dev nD) (t : Fin cfg0.N) (ht : t.val < 25) (p : Fin 400) (q : Fin 256)
    (j : S10000x256.Idx) (hj0 : (j 0).val = 400 * t.val + p.val) (hj1 : (j 1).val = q.val) :
    headAll m c j = headAt m c t p q := by
  unfold headAll
  have e1 : ptOfRow j = t := Fin.ext (by show (j 0).val / 400 = t.val; have := p.isLt; omega)
  have e2 : inBlock j = p := Fin.ext (by show (j 0).val % 400 = p.val; have := p.isLt; omega)
  have e3 : colOf j = q := Fin.ext hj1
  rw [e1, e2, e3]

/-- The second and third scratch buffers agree with their final contents on the rows below `400 n`. -/
def Agree (c : Dev nD) (n : ℕ) (d1 d2 : Vec F S10000x256 .bf16) : Prop :=
  ∀ j : S10000x256.Idx, (j 0).val < 400 * n → d1 j = hidAll m c j ∧ d2 j = headAll m c j

theorem Agree.eq_all {c : Dev nD} {n : ℕ} {d1 d2 : Vec F S10000x256 .bf16} (h : Agree m c n d1 d2) (hn : 25 ≤ n) :
    d1 = hidAll m c ∧ d2 = headAll m c :=
  ⟨funext fun j => (h j (by have := row_lt j; omega)).1, funext fun j => (h j (by have := row_lt j; omega)).2⟩

/-- What point `t` of the second pass stores into the output's staging buffer. -/
def outAt (c : Dev nD) (t : Fin cfg0.N) (h : passTwo (grid0.coords t)) : Vec F S400x256 .f32 :=
  k0_pay6 (iblk m c 0 t) (hidAll m c) (iblk m c 5 t) (botRows (iblk m c 6 t)) (rowBlock (grid0.coords t) h (headAll m c)) (iblk m c 7 t)

/-- The output array once the second pass is over. -/
def outAll (c : Dev nD) : Vec F S10000x256 .f32 := fun j =>
  outAt m c (ptOfRow2 j) ((passTwo_iff _).mpr (by show 25 ≤ 49 - (j 0).val / 400; have := row_lt j; omega)) (ValueIdx.ix2 (inBlock j) (colOf j))

/-- The region's invariant before position `n`: what the launch hands the region before the first point; afterwards
    the first scratch buffer at `prodXW`, the other two at contents that agree with their final ones below row `400 n`,
    and the generator register at some state. -/
def Phi (c : Dev nD) : (n : ℕ) → n ≤ cfg0.N → sProp 𝕄
  | 0, _ => Pipeline.ΦA spec0 c
  | n + 1, _ => iprop(∃ d1 d2, ⌜Agree m c (n + 1) d1 d2⌝ ∗ iprop(owns (c : Thread nD τ) sc0 fullShare (prodXW m c) ∗ owns (c : Thread nD τ) sc1 fullShare d1 ∗ owns (c : Thread nD τ) sc2 fullShare d2) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(∃ d1 d2, ⌜Agree m c (n + 1) d1 d2⌝ ∗ iprop(owns (c : Thread nD τ) sc0 fullShare (prodXW m c) ∗ owns (c : Thread nD τ) sc1 fullShare d1 ∗ owns (c : Thread nD τ) sc2 fullShare d2) ∗ (∃ r, prngReg c r)) := rfl

theorem Phi_pos (c : Dev nD) (n : ℕ) (h : n ≤ cfg0.N) (hz : n ≠ 0) :
    Phi m c n h = iprop(∃ d1 d2, ⌜Agree m c n d1 d2⌝ ∗ iprop(owns (c : Thread nD τ) sc0 fullShare (prodXW m c) ∗ owns (c : Thread nD τ) sc1 fullShare d1 ∗ owns (c : Thread nD τ) sc2 fullShare d2) ∗ (∃ r, prngReg c r)) := by
  cases n with
  | zero => exact absurd rfl hz
  | succ n => rfl

/-- The proof data of the one pipeline on core `c`, relational: the arrays as the region finds them; each input's
    staging buffer is left as the body found it; the output's staging buffer is left at `outAt t` at the points of the
    second pass and is not constrained at those of the first (the body does not touch it there, and what the pipeline
    writes back from it after point 24 is overwritten by the last point); the invariant `Phi`; nothing owed, full shares. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => ∀ h : passTwo (grid0.coords t), X = outAt m c t h
  Φ t := Phi m c t.val (Nat.le_of_lt_succ t.isLt)
  q _ := fullShare
  owed _ := 0

theorem rdat_A (c : Dev nD) (w : Fin cfg0.W) : (rdat m c).A w = V m c (Pipeline.arrRef spec0 w) := by
  dsimp only [rdat]

theorem rdat_after8 (c : Dev nD) (t : Fin cfg0.N) (Y X) :
    (rdat m c).after 8 t Y X ↔ ∀ h : passTwo (grid0.coords t), X = outAt m c t h := by
  dsimp only [rdat]; exact Iff.rfl

end Cert.Kernel.Hand

end
-- ==== Proof.BRunA.lean ====
/-
  The kernel body at the grid's first point, as one triple.

  At point 0 the first two branches run: the body stores `x · W0` into the first scratch buffer (all of it), reads it
  back, and stores the first row block of `h1 · W1` and of `h1 · Wp[0:256]` into rows 0 … 399 of the second and third
  scratch buffers. The output's staging buffer is not touched. The triple names every store as a piece (a rectangle and
  the value stored through it); the pieces are found by running the body.
-/
import proofs.«166813_g11562051961570_week1_w4_920_18_alg».proof.Proof.BBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body at the first point: from the inputs' buffers at their contents, the output's buffer and the first scratch
    buffer at anything, the second and third scratch buffers at `y1`, `y2`, it runs to the inputs' buffers unchanged,
    the output's buffer at something, and each scratch buffer with its pieces written over what it held. -/
noncomputable def runStart (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    { L : List (View.Piece (Elt F) S10000x256 .bf16) × List (View.Piece (Elt F) S10000x256 .bf16) × List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y1 ∗ owns (c : Thread nD τ) arg13 fullShare y2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ f, arg11.view.loc (c : Thread nD τ) ↦[arg11.view.set]{fullShare} arg11.view.writes (Elt F) f L.1) ∗ (arg12.view.loc (c : Thread nD τ) ↦[arg12.view.set]{fullShare} arg12.view.writes (Elt F) (harg12.unread y1) L.2.1) ∗ (arg13.view.loc (c : Thread nD τ) ↦[arg13.view.set]{fullShare} arg13.view.writes (Elt F) (harg13.unread y2) L.2.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_, ?_), fun E K => ?run⟩
  case run =>
    dsimp only
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]; · iexists _; iexact HS0
    isplitl [HS1]; · iexact HS1
    iexact HS2

/-- The pieces the first point stores: `x · W0` over all of the first scratch buffer, and over rows `0 … 399` of the second
    and third the first row block of `h1 · W1` and of `h1 · Wp[0:256]`, computed from the product just stored. -/
theorem runStart_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    (runStart c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y1 y2).1
      = ([⟨Rect.unit (s := S10000x256) ![0, 0] S10000x256.size inb_S10000x256_S10000x256_0_0, k0_pay2 x2 x1⟩],
         [⟨Rect.unit (s := S10000x256) (k0_off1 i) S400x256.size (k0_off1_inb i hc1), k0_pay4 x0 (k0_pay2 x2 x1) x3 x4⟩],
         [⟨Rect.unit (s := S10000x256) (k0_off1 i) S400x256.size (k0_off1_inb i hc1), k0_pay5 x0 (k0_pay2 x2 x1) x3 (topRows x6)⟩]) := by
  unfold runStart
  dsimp only
  sl_unfold_run_names
  simp only [View.readAt_eq_ld, Memref.IsWhole.read_unread, View.ld_unit_zero (S := S400x10000) hz2, View.ld_unit_zero (S := S1x256) hz2, View.ld_unit_zero (S := S256x256) hz2, View.ld_unit_zero (S := S10000x256) hz2]
  have e := View.readCov_unit_zero (Val := Elt F) (S := S10000x256) (e := .bf16) arg11.view hz2 inb_S10000x256_S10000x256_0_0 (k0_pay2 x2 x1)
  refine Prod.ext rfl (Prod.ext ?_ ?_)
  · exact congrArg (fun z => [(⟨Rect.unit (s := S10000x256) (k0_off1 i) S400x256.size (k0_off1_inb i hc1), k0_pay4 x0 z x3 x4⟩ : View.Piece (Elt F) S10000x256 .bf16)]) e
  · exact congrArg (fun z => [(⟨Rect.unit (s := S10000x256) (k0_off1 i) S400x256.size (k0_off1_inb i hc1), k0_pay5 x0 z x3 (topRows x6)⟩ : View.Piece (Elt F) S10000x256 .bf16)]) e

end Cert.Kernel.Hand

end
-- ==== Proof.BRunB.lean ====
/-
  The kernel body at a later point of the first pass (points 1 … 24), as one triple.

  Only the second branch runs: the body reads `x · W0` from the first scratch buffer (left as it is) and stores row block
  `i` of `h1 · W1` and of `h1 · Wp[0:256]` into rows `400 i … 400 i + 399` of the second and third scratch buffers. The
  output's staging buffer is not touched.
-/
import proofs.«166813_g11562051961570_week1_w4_920_18_alg».proof.Proof.BBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body at a later point of the first pass: the inputs' buffers and the first scratch buffer (at `y0`) come back
    unchanged, the output's buffer at something, the second and third scratch buffers with their pieces written over
    `y1`, `y2`. -/
noncomputable def runFirstPass (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y0 y1 y2 : Vec F S10000x256 .bf16) :
    { L : List (View.Piece (Elt F) S10000x256 .bf16) × List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y0 ∗ owns (c : Thread nD τ) arg12 fullShare y1 ∗ owns (c : Thread nD τ) arg13 fullShare y2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y0 ∗ (arg12.view.loc (c : Thread nD τ) ↦[arg12.view.set]{fullShare} arg12.view.writes (Elt F) (harg12.unread y1) L.1) ∗ (arg13.view.loc (c : Thread nD τ) ↦[arg13.view.set]{fullShare} arg13.view.writes (Elt F) (harg13.unread y2) L.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    dsimp only
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _; isplitr; · ipureintro; exact harg11.read_unread _
      iexact HS0
    isplitl [HS1]; · iexact HS1
    iexact HS2

/-- The pieces a later point of the first pass stores: over rows `400 i … 400 i + 399` of the second and third scratch
    buffers, row block `i` of `h1 · W1` and of `h1 · Wp[0:256]`, computed from the first scratch buffer's contents. -/
theorem runFirstPass_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y0 y1 y2 : Vec F S10000x256 .bf16) :
    (runFirstPass c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y0 y1 y2).1
      = ([⟨Rect.unit (s := S10000x256) (k0_off1 i) S400x256.size (k0_off1_inb i hc1), k0_pay4 x0 y0 x3 x4⟩],
         [⟨Rect.unit (s := S10000x256) (k0_off1 i) S400x256.size (k0_off1_inb i hc1), k0_pay5 x0 y0 x3 (topRows x6)⟩]) := by
  unfold runFirstPass
  dsimp only
  simp only [View.readAt_eq_ld, Memref.IsWhole.read_unread, View.ld_unit_zero (S := S400x10000) hz2, View.ld_unit_zero (S := S1x256) hz2, View.ld_unit_zero (S := S256x256) hz2, View.ld_unit_zero (S := S10000x256) hz2]

end Cert.Kernel.Hand

end
-- ==== Proof.BRunC.lean ====
/-
  The kernel body at a point of the second pass (points 25 … 49), as one triple.

  Only the third branch runs: the body reads all of `h1 · W1` from the second scratch buffer and row block `24 - i` of
  `h1 · Wp[0:256]` from the third (both left as they are) and stores row block `24 - i` of the output into the output's
  staging buffer, all of it. The first scratch buffer is not touched.
-/
import proofs.«166813_g11562051961570_week1_w4_920_18_alg».proof.Proof.BBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body at a point of the second pass: the inputs' buffers and the second and third scratch buffers (at `y1`,
    `y2`) come back unchanged, the output's buffer with its pieces written. -/
noncomputable def runSecondPass (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : ¬passOne i) (hc2 : passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    { L : List (View.Piece (Elt F) S400x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg12 fullShare y1 ∗ owns (c : Thread nD τ) arg13 fullShare y2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ owns (c : Thread nD τ) arg12 fullShare y1 ∗ owns (c : Thread nD τ) arg13 fullShare y2) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS1]
    · iexists _; isplitr; · ipureintro; exact harg12.read_unread _
      iexact HS1
    iexists _; isplitr; · ipureintro; exact harg13.read_unread _
    iexact HS2

/-- The piece a point of the second pass stores: over all of the output's staging buffer, row block `24 - i` of the
    output, computed from the second scratch buffer's contents, rows `256 … 511` of the head's weights, and rows
    `400 (24 - i) …` of the third scratch buffer. -/
theorem runSecondPass_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : ¬passOne i) (hc2 : passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    (runSecondPass c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y1 y2).1
      = [⟨Rect.unit (s := S400x256) ![0, 0] S400x256.size inb_S400x256_S400x256_0_0,
          k0_pay6 x0 y1 x5 (botRows x6) (rowBlock i hc2 y2) x7⟩] := by
  unfold runSecondPass
  dsimp only
  simp only [View.readAt_eq_ld, Memref.IsWhole.read_unread, View.ld_unit_zero (S := S400x10000) hz2, View.ld_unit_zero (S := S1x256) hz2, View.ld_unit_zero (S := S256x256) hz2, View.ld_unit_zero (S := S10000x256) hz2]

end Cert.Kernel.Hand

end
-- ==== Proof.BData.lean ====
/-
  The body obligation of the kernel's one pipeline against the relational proof data, the frame run, and the frame.

  At every grid point the body is handed each input's staging buffer at the window's block there (fetched at this point
  or left from the last one: the block index has not moved), and the region's invariant. Point 0 runs the first two
  branches and establishes the invariant after one point; a later point of the first pass extends the rows on which the
  second and third scratch buffers agree with their final contents by the 400 rows it stores; from point 25 on those
  buffers are complete and the body stores the output block. The run then follows from the library's launch theorem
  for relational proof data with a tracking invariant, and the frame claim from its post.
-/
import proofs.«166813_g11562051961570_week1_w4_920_18_alg».proof.Proof.BDefs
import proofs.«166813_g11562051961570_week1_w4_920_18_alg».proof.Proof.BRunA
import proofs.«166813_g11562051961570_week1_w4_920_18_alg».proof.Proof.BRunB
import proofs.«166813_g11562051961570_week1_w4_920_18_alg».proof.Proof.BRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the whole-shape rectangle at zero offsets leaves its payload, whatever the buffer held. -/
theorem read_whole_piece {κ : Kind} {sp : Space} {S : Shape} {e : EltTy} {Val : EltTy → Type} (v : View sig κ sp S e) (f : v.ty.Contents Val)
    {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

/-! ## Each input's staging buffer holds its block -/

theorem finds0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk
  rw [rdat_A]; try rfl
theorem finds1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk
  rw [rdat_A]; try rfl
theorem finds2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk
  rw [rdat_A]; try rfl
theorem finds3 (c : Dev nD) (t : Fin cfg0.N) (Y) (h : (rdat m c).Finds 3 t Y) : Y = iblk m c 3 t := by
  obtain ⟨d, rfl⟩ := RDat.finds_in_eq_fetched (rdat m c) 3 rfl (fun _ _ _ => rfl) (fun _ _ _ h => h) t Y h
  unfold RDat.fetched RDat.blockOf iblk
  rw [rdat_A]; try rfl
theorem finds4 (c : Dev nD) (t : Fin cfg0.N) (Y) (h : (rdat m c).Finds 4 t Y) : Y = iblk m c 4 t := by
  obtain ⟨d, rfl⟩ := RDat.finds_in_eq_fetched (rdat m c) 4 rfl (fun _ _ _ => rfl) (fun _ _ _ h => h) t Y h
  unfold RDat.fetched RDat.blockOf iblk
  rw [rdat_A]; try rfl
theorem finds5 (c : Dev nD) (t : Fin cfg0.N) (Y) (h : (rdat m c).Finds 5 t Y) : Y = iblk m c 5 t := by
  obtain ⟨d, rfl⟩ := RDat.finds_in_eq_fetched (rdat m c) 5 rfl (fun _ _ _ => rfl) (fun _ _ _ h => h) t Y h
  unfold RDat.fetched RDat.blockOf iblk
  rw [rdat_A]; try rfl
theorem finds6 (c : Dev nD) (t : Fin cfg0.N) (Y) (h : (rdat m c).Finds 6 t Y) : Y = iblk m c 6 t := by
  obtain ⟨d, rfl⟩ := RDat.finds_in_eq_fetched (rdat m c) 6 rfl (fun _ _ _ => rfl) (fun _ _ _ h => h) t Y h
  unfold RDat.fetched RDat.blockOf iblk
  rw [rdat_A]; try rfl
theorem finds7 (c : Dev nD) (t : Fin cfg0.N) (Y) (h : (rdat m c).Finds 7 t Y) : Y = iblk m c 7 t := by
  obtain ⟨d, rfl⟩ := RDat.finds_in_eq_fetched (rdat m c) 7 rfl (fun _ _ _ => rfl) (fun _ _ _ h => h) t Y h
  unfold RDat.fetched RDat.blockOf iblk
  rw [rdat_A]; try rfl

/-! ## What the stores of the first pass leave in the second and third scratch buffers -/

/-- The offsets of the first pass's stores at point `t`: row `400 t`, column 0. -/
theorem off1_eq (t : Fin cfg0.N) (ht : t.val < 25) : k0_off1 (grid0.coords t) = ![400 * t.val, 0] := by
  rw [k0_off1_eq, coord_one, Nat.mod_eq_of_lt ht]

/-- After point `t` of the first pass the two buffers agree with their final contents on the rows below `400 (t + 1)`:
    the rows `400 t … 400 t + 399` are the block just stored, the rows below are as before. -/
theorem agree_step (c : Dev nD) (t : Fin cfg0.N) (ht : t.val < 25) (hc1 : passOne (grid0.coords t))
    (d1 d2 : Vec F S10000x256 .bf16) (hprev : Agree m c t.val d1 d2) :
    Agree m c (t.val + 1)
      (sc1.view.read (Elt F) (sc1.view.writes (Elt F) (hsc1.unread d1)
        [⟨Rect.unit (s := S10000x256) (k0_off1 (grid0.coords t)) S400x256.size (k0_off1_inb (grid0.coords t) hc1), k0_pay4 (iblk m c 0 t) (prodXW m c) (iblk m c 3 t) (iblk m c 4 t)⟩]))
      (sc2.view.read (Elt F) (sc2.view.writes (Elt F) (hsc2.unread d2)
        [⟨Rect.unit (s := S10000x256) (k0_off1 (grid0.coords t)) S400x256.size (k0_off1_inb (grid0.coords t) hc1), k0_pay5 (iblk m c 0 t) (prodXW m c) (iblk m c 3 t) (topRows (iblk m c 6 t))⟩])) := by
  intro j hj
  by_cases hrow : (j 0).val < 400 * t.val
  · constructor
    · rw [View.read_writes_cons_rows_of_not_mem sc1.view (hsc1.unread d1) _ _ [] j (off1_eq t ht) (rfl : S400x256.size 0 = 400) (Or.inl hrow)]
      rw [View.writes_nil, hsc1.read_unread]
      exact (hprev j hrow).1
    · rw [View.read_writes_cons_rows_of_not_mem sc2.view (hsc2.unread d2) _ _ [] j (off1_eq t ht) (rfl : S400x256.size 0 = 400) (Or.inl hrow)]
      rw [View.writes_nil, hsc2.read_unread]
      exact (hprev j hrow).2
  · have hp : (j 0).val - 400 * t.val < 400 := by omega
    have hx0 : (j 0).val = 400 * t.val + (⟨(j 0).val - 400 * t.val, hp⟩ : Fin 400).val := by show (j 0).val = 400 * t.val + ((j 0).val - 400 * t.val); omega
    constructor
    · rw [View.read_writes_cons_rows_of_mem sc1.view (hsc1.unread d1) (k0_off1_inb (grid0.coords t) hc1) (k0_pay4 (iblk m c 0 t) (prodXW m c) (iblk m c 3 t) (iblk m c 4 t)) [] j (ValueIdx.ix2 (⟨(j 0).val - 400 * t.val, hp⟩ : Fin 400) (colOf j)) (off1_eq t ht) hx0 rfl]
      exact (hidAll_block m c t ht ⟨(j 0).val - 400 * t.val, hp⟩ (colOf j) j hx0 rfl).symm
    · rw [View.read_writes_cons_rows_of_mem sc2.view (hsc2.unread d2) (k0_off1_inb (grid0.coords t) hc1) (k0_pay5 (iblk m c 0 t) (prodXW m c) (iblk m c 3 t) (topRows (iblk m c 6 t))) [] j (ValueIdx.ix2 (⟨(j 0).val - 400 * t.val, hp⟩ : Fin 400) (colOf j)) (off1_eq t ht) hx0 rfl]
      exact (headAll_block m c t ht ⟨(j 0).val - 400 * t.val, hp⟩ (colOf j) j hx0 rfl).symm

/-- Before the first point nothing is asked of the two buffers. -/
theorem agree_zero (c : Dev nD) (d1 d2 : Vec F S10000x256 .bf16) : Agree m c 0 d1 d2 :=
  fun j hj => absurd hj (by omega)

/-! ## The body obligation, at a generic point -/

/-- What the body is called with at point `t`, the windows one by one: the invariant, nothing owed, and each window's
    current staging buffer at the contents `Y w` the pipeline may have left there. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8))

/-- and what it returns: the invariant at the next point, and each buffer at contents its relation allows. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X))

theorem Phi_castSucc (c : Dev nD) (t : Fin cfg0.N) :
    (rdat m c).Φ t.castSucc = Phi m c t.val (Nat.le_of_lt t.isLt) := by
  dsimp only [rdat]; simp only [Fin.coe_castSucc]

set_option maxHeartbeats 4000000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t _ (hY 0), finds1 m c t _ (hY 1), finds2 m c t _ (hY 2), finds3 m c t _ (hY 3), finds4 m c t _ (hY 4), finds5 m c t _ (hY 5), finds6 m c t _ (hY 6), finds7 m c t _ (hY 7)]
  rw [show (rdat m c).owesAt () t.succ = (rdat m c).owesAt () t.castSucc from rfl]
  rw [show (rdat m c).Φ t.succ = Phi m c (t.val + 1) t.isLt from rfl, Phi_succ, Phi_castSucc]
  have hN : t.val < 50 := lt_of_lt_of_eq t.isLt N50
  by_cases h0 : t.val = 0
  · -- the first point
    have hc0 : atStart (grid0.coords t) := (atStart_iff t).mpr h0
    have hc1 : passOne (grid0.coords t) := (passOne_iff t).mpr (by omega)
    have hc2 : ¬passTwo (grid0.coords t) := fun h => by have := (passTwo_iff t).mp h; omega
    obtain rfl : t = pt0 := Fin.ext h0
    rw [Phi_zero m c _ _ rfl, PhiA_eq]
    iintro ⟨⟨⟨⟨%d0, HS0⟩, ⟨%d1, HS1⟩, ⟨%d2, HS2⟩⟩, Hg⟩, Ho, H0, H1, H2, H3, H4, H5, H6, H7, H8⟩
    iapply ((runStart c (grid0.coords pt0) _ _ _ _ _ _ _ _ _ _ _ _ _ _ _ _ _ _ _ _ _ _ _ _ hc0 hc1 hc2 (iblk m c 0 pt0) (iblk m c 1 pt0) (iblk m c 2 pt0) (iblk m c 3 pt0) (iblk m c 4 pt0) (iblk m c 5 pt0) (iblk m c 6 pt0) (iblk m c 7 pt0) d1 d2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexact HS1
    isplitl [HS2]; · iexact HS2
    rw [runStart_pieces]
    dsimp only
    iintro ⟨H0, H1, H2, H3, H4, H5, H6, H7, ⟨%d8, H8⟩, ⟨%f0, HS0⟩, HS1, HS2⟩
    isplitl [HS0 HS1 HS2 Hg]
    · iexists _, _
      isplitr
      · ipureintro; exact agree_step m c pt0 (by show (0 : ℕ) < 25; omega) hc1 d1 d2 (agree_zero m c d1 d2)
      isplitl [HS0 HS1 HS2]
      · isplitl [HS0]
        · unfold owns; iexists _; isplitr
          swap; · iexact HS0
          ipureintro
          exact read_whole_piece (S := S10000x256) _ _ hz2 inb_S10000x256_S10000x256_0_0 _
        isplitl [HS1]
        · unfold owns; iexists _; isplitr
          swap; · iexact HS1
          ipureintro; rfl
        unfold owns; iexists _; isplitr
        swap; · iexact HS2
        ipureintro; rfl
      iexact Hg
    isplitl [Ho]; · iexact Ho
    isplitl [H0]
    · iexists _; isplitr; · ipureintro; exact (rfl : iblk m c 0 _ = iblk m c 0 _)
      iexact H0
    isplitl [H1]
    · iexists _; isplitr; · ipureintro; exact (rfl : iblk m c 1 _ = iblk m c 1 _)
      iexact H1
    isplitl [H2]
    · iexists _; isplitr; · ipureintro; exact (rfl : iblk m c 2 _ = iblk m c 2 _)
      iexact H2
    isplitl [H3]
    · iexists _; isplitr; · ipureintro; exact (rfl : iblk m c 3 _ = iblk m c 3 _)
      iexact H3
    isplitl [H4]
    · iexists _; isplitr; · ipureintro; exact (rfl : iblk m c 4 _ = iblk m c 4 _)
      iexact H4
    isplitl [H5]
    · iexists _; isplitr; · ipureintro; exact (rfl : iblk m c 5 _ = iblk m c 5 _)
      iexact H5
    isplitl [H6]
    · iexists _; isplitr; · ipureintro; exact (rfl : iblk m c 6 _ = iblk m c 6 _)
      iexact H6
    isplitl [H7]
    · iexists _; isplitr; · ipureintro; exact (rfl : iblk m c 7 _ = iblk m c 7 _)
      iexact H7
    iexists d8; isplitr
    · ipureintro; exact (rdat_after8 m c _ _ d8).mpr (fun h => absurd h hc2)
    iexact H8
  · by_cases h1 : t.val < 25
    · -- a later point of the first pass
      have hc0 : ¬atStart (grid0.coords t) := fun h => h0 ((atStart_iff t).mp h)
      have hc1 : passOne (grid0.coords t) := (passOne_iff t).mpr h1
      have hc2 : ¬passTwo (grid0.coords t) := fun h => by have := (passTwo_iff t).mp h; omega
      rw [Phi_pos m c _ _ h0]
      iintro ⟨⟨%d1, %d2, %hag, ⟨HS0, HS1, HS2⟩, Hg⟩, Ho, H0, H1, H2, H3, H4, H5, H6, H7, H8⟩
      iapply ((runFirstPass c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (prodXW m c) d1 d2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      rw [runFirstPass_pieces]
      dsimp only
      iintro ⟨H0, H1, H2, H3, H4, H5, H6, H7, ⟨%d8, H8⟩, HS0, HS1, HS2⟩
      isplitl [HS0 HS1 HS2 Hg]
      · iexists _, _
        isplitr
        · ipureintro; exact agree_step m c t h1 hc1 d1 d2 hag
        isplitl [HS0 HS1 HS2]
        · isplitl [HS0]; · iexact HS0
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]
      · iexists _; isplitr; · ipureintro; exact (rfl : iblk m c 0 _ = iblk m c 0 _)
        iexact H0
      isplitl [H1]
      · iexists _; isplitr; · ipureintro; exact (rfl : iblk m c 1 _ = iblk m c 1 _)
        iexact H1
      isplitl [H2]
      · iexists _; isplitr; · ipureintro; exact (rfl : iblk m c 2 _ = iblk m c 2 _)
        iexact H2
      isplitl [H3]
      · iexists _; isplitr; · ipureintro; exact (rfl : iblk m c 3 _ = iblk m c 3 _)
        iexact H3
      isplitl [H4]
      · iexists _; isplitr; · ipureintro; exact (rfl : iblk m c 4 _ = iblk m c 4 _)
        iexact H4
      isplitl [H5]
      · iexists _; isplitr; · ipureintro; exact (rfl : iblk m c 5 _ = iblk m c 5 _)
        iexact H5
      isplitl [H6]
      · iexists _; isplitr; · ipureintro; exact (rfl : iblk m c 6 _ = iblk m c 6 _)
        iexact H6
      isplitl [H7]
      · iexists _; isplitr; · ipureintro; exact (rfl : iblk m c 7 _ = iblk m c 7 _)
        iexact H7
      iexists d8; isplitr
      · ipureintro; exact (rdat_after8 m c _ _ d8).mpr (fun h => absurd h hc2)
      iexact H8
    · -- a point of the second pass
      have h2 : 25 ≤ t.val := by omega
      have hc0 : ¬atStart (grid0.coords t) := fun h => h0 ((atStart_iff t).mp h)
      have hc1 : ¬passOne (grid0.coords t) := fun h => h1 ((passOne_iff t).mp h)
      have hc2 : passTwo (grid0.coords t) := (passTwo_iff t).mpr h2
      rw [Phi_pos m c _ _ h0]
      iintro ⟨⟨%d1, %d2, %hag, ⟨HS0, HS1, HS2⟩, Hg⟩, Ho, H0, H1, H2, H3, H4, H5, H6, H7, H8⟩
      obtain ⟨rfl, rfl⟩ := hag.eq_all m h2
      iapply ((runSecondPass c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidAll m c) (headAll m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS1]; · iexact HS1
      isplitl [HS2]; · iexact HS2
      rw [runSecondPass_pieces]
      iintro ⟨H0, H1, H2, H3, H4, H5, H6, H7, ⟨%f8, H8⟩, HS1, HS2⟩
      isplitl [HS0 HS1 HS2 Hg]
      · iexists _, _
        isplitr
        · ipureintro; exact fun j _ => ⟨rfl, rfl⟩
        isplitl [HS0 HS1 HS2]
        · isplitl [HS0]; · iexact HS0
          isplitl [HS1]; · iexact HS1
          iexact HS2
        iexact Hg
      isplitl [Ho]; · iexact Ho
      isplitl [H0]
      · iexists _; isplitr; · ipureintro; exact (rfl : iblk m c 0 _ = iblk m c 0 _)
        iexact H0
      isplitl [H1]
      · iexists _; isplitr; · ipureintro; exact (rfl : iblk m c 1 _ = iblk m c 1 _)
        iexact H1
      isplitl [H2]
      · iexists _; isplitr; · ipureintro; exact (rfl : iblk m c 2 _ = iblk m c 2 _)
        iexact H2
      isplitl [H3]
      · iexists _; isplitr; · ipureintro; exact (rfl : iblk m c 3 _ = iblk m c 3 _)
        iexact H3
      isplitl [H4]
      · iexists _; isplitr; · ipureintro; exact (rfl : iblk m c 4 _ = iblk m c 4 _)
        iexact H4
      isplitl [H5]
      · iexists _; isplitr; · ipureintro; exact (rfl : iblk m c 5 _ = iblk m c 5 _)
        iexact H5
      isplitl [H6]
      · iexists _; isplitr; · ipureintro; exact (rfl : iblk m c 6 _ = iblk m c 6 _)
        iexact H6
      isplitl [H7]
      · iexists _; isplitr; · ipureintro; exact (rfl : iblk m c 7 _ = iblk m c 7 _)
        iexact H7
      iexists (outAt m c t hc2); isplitr
      · ipureintro; exact (rdat_after8 m c _ _ _).mpr (fun _ => rfl)
      unfold owns; iexists _; isplitr
      swap; · iexact H8
      ipureintro
      exact read_whole_piece (S := S400x256) _ _ hz2 inb_S400x256_S400x256_0_0 _

/-- The library's body obligation for relational proof data, at every point. -/
theorem body_obligation (c : Dev nD) : (rdat (F := F) m c).BodyObligation (defs₀ (F := F)) Variants.none () Set.univ := fun t Y hY => by
  rw [bigSep_W0, bigSep_W0]
  exact sound_body m c t Y hY

/-- What the launch hands the region is the invariant before the first point. -/
theorem hin (c : Dev nD) : Pipeline.ΦA spec0 c ⊢ (rdat m c).Φ 0 := by
  rw [show (rdat m c).Φ 0 = Phi m c 0 (Nat.zero_le _) from rfl, Phi_zero m c 0 _ rfl]
  try exact Idealize.SL.BI.Entails.refl _

/-- After the last point the invariant gives the scratch buffers back at some contents. -/
theorem hout (c : Dev nD) : (rdat m c).Φ (Fin.last cfg0.N) ⊢ Pipeline.ΦA spec0 c := by
  rw [show (rdat m c).Φ (Fin.last cfg0.N) = Phi m c (Fin.last cfg0.N).val (Nat.le_of_lt_succ (Fin.last cfg0.N).isLt) from rfl,
    Phi_pos m c _ _ (by rw [Fin.val_last, N50]; omega), PhiA_eq]
  iintro ⟨%d1, %d2, -, ⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has each array of the pipeline at contents
    the relational proof data allows after every write-back (an input: its entry contents) and every other unscoped
    buffer at its region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := hin m) (hout := hout m)

/-- The frame: the eight argument arrays end as launched — the four the pipeline stages by the input clause of the
    run's post, the other four by its clause for unstaged buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Eq.mp (congrFun ((rdat m c).ArrAt_in 0 rfl _) _) ((h c).1 0)).trans ((rdat_A m c 0).trans (V_main_arg1 m c)),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c),
      (Eq.mp (congrFun ((rdat m c).ArrAt_in 6 rfl _) _) ((h c).1 6)).trans ((rdat_A m c 6).trans (V_main_arg6 m c)),
      ((h c).2 main_arg7 (Pipeline.mem_restRefs_of main_arg7 (by decide) (by decide))).trans (V_main_arg7 m c)⟩) (run_main m ρ)

end Cert.Kernel.Hand

end
-- ==== Proof.KBase.lean ====
/-
  What the three control cases of the kernel body share: which grid points take which branch, the staging and scratch
  buffers the body is called with, and the region's invariant spelt out.

  The grid has 2 × 25 = 50 points, visited in order `t = 25·l + i`. The body's first branch (`l = 0` and `i = 0`) is taken
  at point 0 only; its second (`l = 0`) at the points below 25, its third (`l = 1`) from point 25 on.
-/
import proofs.«166813_g11562051961570_week1_w4_920_18_alg».proof.Proof.Gen.KernelIdeal.Frame
import proofs.«166813_g11562051961570_week1_w4_920_18_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

/-- The zero offsets of a rank-2 rectangle, however spelt. -/
theorem hz2 : (![0, 0] : Fin 2 → ℕ) = fun _ => 0 := by funext a; fin_cases a <;> rfl

/-! ## The three branches over the grid -/

/-- The first branch's condition: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atStart_iff : ∀ t : Fin cfg0.N, atStart (grid0.coords t) ↔ t.val = 0 :=
  (by decide +kernel : ∀ t : Fin grid0.N, atStart (grid0.coords t) ↔ t.val = 0)

/-- The second branch's condition: the first pass over the row blocks (`l = 0`). -/
abbrev passOne (i : grid0.Coords) : Prop := k0_cond2 i = 1#1
/-- It holds at the points below 25. -/
theorem passOne_iff : ∀ t : Fin cfg0.N, passOne (grid0.coords t) ↔ t.val < 25 :=
  (by decide +kernel : ∀ t : Fin grid0.N, passOne (grid0.coords t) ↔ t.val < 25)

/-- The third branch's condition: the second pass (`l = 1`). -/
abbrev passTwo (i : grid0.Coords) : Prop := k0_cond3 i = 1#1
/-- It holds from point 25 on. -/
theorem passTwo_iff : ∀ t : Fin cfg0.N, passTwo (grid0.coords t) ↔ 25 ≤ t.val :=
  (by decide +kernel : ∀ t : Fin grid0.N, passTwo (grid0.coords t) ↔ 25 ≤ t.val)

/-- The second coordinate of point `t` is `t mod 25`. -/
theorem coord_one : ∀ t : Fin cfg0.N, ((grid0.coords t) 1).val = t.val % 25 :=
  (by decide +kernel : ∀ t : Fin grid0.N, ((grid0.coords t) 1).val = t.val % 25)

/-! ## The input windows are never idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-! ## The buffers the body is called with -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x256 .f32 := win0_8.stage (cfg0.slots t 8)
abbrev hs8 (t : Fin cfg0.N) : (ms8 t).IsWhole := hstage0_8 ((cfg0.slots t 8).cast nbuf0_8)
/-- The three scratch buffers: `x · W0`, then `h1 · W1` and `h1 · Wp[0:256]` row block by row block. -/
abbrev sc0 : Memref sig .tc .vmem S10000x256 .bf16 := Memref.whole cc0_scratch0
abbrev sc1 : Memref sig .tc .vmem S10000x256 .bf16 := Memref.whole cc0_scratch1
abbrev sc2 : Memref sig .tc .vmem S10000x256 .bf16 := Memref.whole cc0_scratch2
theorem hsc0 : (sc0).IsWhole := Memref.isWhole_whole _
theorem hsc1 : (sc1).IsWhole := Memref.isWhole_whole _
theorem hsc2 : (sc2).IsWhole := Memref.isWhole_whole _

/-! ## Parts of a staged block the body loads -/

/-- Rows `0 … 255` of the head's weights, as the body loads them from the staged block. -/
abbrev topRows (x6 : Vec F S512x256 .f32) : Vec F S256x256 .f32 :=
  View.ld x6 (Rect.unit (s := S512x256) ![0, 0] S256x256.size inb_S512x256_S256x256_0_0)

/-- Rows `256 … 511` of the head's weights. -/
abbrev botRows (x6 : Vec F S512x256 .f32) : Vec F S256x256 .f32 :=
  View.ld x6 (Rect.unit (s := S512x256) ![256, 0] S256x256.size inb_S512x256_S256x256_256_0)

/-- The 400 rows of a 10000 × 256 buffer that the second pass reads at grid point `i`: rows `400 (24 - i₁) …`. -/
abbrev rowBlock (i : grid0.Coords) (h : passTwo i) (y : Vec F S10000x256 .bf16) : Vec F S400x256 .bf16 :=
  View.ld y (Rect.unit (s := S10000x256) (k0_off2 i) S400x256.size (k0_off2_inb i h))

/-- What the region hands the body besides the windows: the three scratch buffers at some contents and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Hand

end
-- ==== Proof.KDefs.lean ====
/-
  The quantities the kernel's run is stated over, at any float instance.

  Writing `blk w t` for window `w`'s block of its array at grid point `t` (the propagation matrix's row block for window 0,
  the whole array for the others):
  * `prodXW` is what the first point stores into the first scratch buffer: the product of the features and `W0`;
  * `hidAt t p q`, `headAt t p q` are entry `(p, q)` of what point `t` of the first pass stores into rows `400 t …` of the
    second and third scratch buffers (row block `t` of `h1 · W1` and of `h1 · Wp[0:256]`), and `hidAll`, `headAll` the
    10000 × 256 arrays those 25 blocks make up: row `r` is row `r mod 400` of block `r / 400`;
  * `outAt t` is what point `t` of the second pass stores into the output's staging buffer, and `outAll` the 10000 × 256
    array its 25 blocks make up: the second pass visits row block `24 - i` at its `i`-th point `t = 25 + i`, so row `r`
    is row `r mod 400` of what point `49 - r / 400` stores.
  The region's invariant after `n ≥ 1` points: the first scratch buffer holds `prodXW`, and the second and third agree
  with `hidAll`, `headAll` on the rows below `400 n` (all rows once `n ≥ 25`). What the body leaves in the output's staging
  buffer is constrained only in the second pass, where it is `outAt t`; in the first pass the body does not touch it.
-/
import proofs.«166813_g11562051961570_week1_w4_920_18_alg».proof.Proof.KBase
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The grid has 50 points. -/
theorem N50 : cfg0.N = 50 := N_0

/-- The grid's first point. -/
abbrev pt0 : Fin cfg0.N := ⟨0, by rw [N50]; omega⟩

/-- What the first point stores into the first scratch buffer. -/
def prodXW (c : Dev nD) : Vec F S10000x256 .bf16 := k0_pay2 (iblk m c 2 pt0) (iblk m c 1 pt0)

/-- Entry `(p, q)` of what point `t` of the first pass stores into the second scratch buffer. -/
def hidAt (c : Dev nD) (t : Fin cfg0.N) (p : Fin 400) (q : Fin 256) : F .bf16 :=
  k0_pay4 (iblk m c 0 t) (prodXW m c) (iblk m c 3 t) (iblk m c 4 t) (ValueIdx.ix2 p q)

/-- Entry `(p, q)` of what point `t` of the first pass stores into the third scratch buffer. -/
def headAt (c : Dev nD) (t : Fin cfg0.N) (p : Fin 400) (q : Fin 256) : F .bf16 :=
  k0_pay5 (iblk m c 0 t) (prodXW m c) (iblk m c 3 t) (topRows (iblk m c 6 t)) (ValueIdx.ix2 p q)

theorem row_lt (j : S10000x256.Idx) : (j 0).val < 10000 := (j 0).isLt
theorem col_lt (j : S10000x256.Idx) : (j 1).val < 256 := (j 1).isLt

/-- The point of the first pass that stores row `r`: `r / 400`. -/
def ptOfRow (j : S10000x256.Idx) : Fin cfg0.N := ⟨(j 0).val / 400, by have := row_lt j; rw [N50]; omega⟩
/-- The point of the second pass that stores row `r`: `49 - r / 400`. -/
def ptOfRow2 (j : S10000x256.Idx) : Fin cfg0.N := ⟨49 - (j 0).val / 400, by rw [N50]; omega⟩
/-- Row `r`'s place within its block: `r mod 400`. -/
def inBlock (j : S10000x256.Idx) : Fin 400 := ⟨(j 0).val % 400, Nat.mod_lt _ (by omega)⟩
def colOf (j : S10000x256.Idx) : Fin 256 := ⟨(j 1).val, col_lt j⟩

/-- The second scratch buffer once the first pass is over: 25 row blocks of 400 rows. -/
def hidAll (c : Dev nD) : Vec F S10000x256 .bf16 := fun j => hidAt m c (ptOfRow j) (inBlock j) (colOf j)
/-- The third scratch buffer once the first pass is over. -/
def headAll (c : Dev nD) : Vec F S10000x256 .bf16 := fun j => headAt m c (ptOfRow j) (inBlock j) (colOf j)

/-- Row `400 t + p` of the second scratch buffer's final contents is row `p` of what point `t` stored. -/
theorem hidAll_block (c : Dev nD) (t : Fin cfg0.N) (ht : t.val < 25) (p : Fin 400) (q : Fin 256)
    (j : S10000x256.Idx) (hj0 : (j 0).val = 400 * t.val + p.val) (hj1 : (j 1).val = q.val) :
    hidAll m c j = hidAt m c t p q := by
  unfold hidAll
  have e1 : ptOfRow j = t := Fin.ext (by show (j 0).val / 400 = t.val; have := p.isLt; omega)
  have e2 : inBlock j = p := Fin.ext (by show (j 0).val % 400 = p.val; have := p.isLt; omega)
  have e3 : colOf j = q := Fin.ext hj1
  rw [e1, e2, e3]

theorem headAll_block (c : Dev nD) (t : Fin cfg0.N) (ht : t.val < 25) (p : Fin 400) (q : Fin 256)
    (j : S10000x256.Idx) (hj0 : (j 0).val = 400 * t.val + p.val) (hj1 : (j 1).val = q.val) :
    headAll m c j = headAt m c t p q := by
  unfold headAll
  have e1 : ptOfRow j = t := Fin.ext (by show (j 0).val / 400 = t.val; have := p.isLt; omega)
  have e2 : inBlock j = p := Fin.ext (by show (j 0).val % 400 = p.val; have := p.isLt; omega)
  have e3 : colOf j = q := Fin.ext hj1
  rw [e1, e2, e3]

/-- The second and third scratch buffers agree with their final contents on the rows below `400 n`. -/
def Agree (c : Dev nD) (n : ℕ) (d1 d2 : Vec F S10000x256 .bf16) : Prop :=
  ∀ j : S10000x256.Idx, (j 0).val < 400 * n → d1 j = hidAll m c j ∧ d2 j = headAll m c j

theorem Agree.eq_all {c : Dev nD} {n : ℕ} {d1 d2 : Vec F S10000x256 .bf16} (h : Agree m c n d1 d2) (hn : 25 ≤ n) :
    d1 = hidAll m c ∧ d2 = headAll m c :=
  ⟨funext fun j => (h j (by have := row_lt j; omega)).1, funext fun j => (h j (by have := row_lt j; omega)).2⟩

/-- What point `t` of the second pass stores into the output's staging buffer. -/
def outAt (c : Dev nD) (t : Fin cfg0.N) (h : passTwo (grid0.coords t)) : Vec F S400x256 .f32 :=
  k0_pay6 (iblk m c 0 t) (hidAll m c) (iblk m c 5 t) (botRows (iblk m c 6 t)) (rowBlock (grid0.coords t) h (headAll m c)) (iblk m c 7 t)

/-- The output array once the second pass is over. -/
def outAll (c : Dev nD) : Vec F S10000x256 .f32 := fun j =>
  outAt m c (ptOfRow2 j) ((passTwo_iff _).mpr (by show 25 ≤ 49 - (j 0).val / 400; have := row_lt j; omega)) (ValueIdx.ix2 (inBlock j) (colOf j))

/-- The region's invariant before position `n`: what the launch hands the region before the first point; afterwards
    the first scratch buffer at `prodXW`, the other two at contents that agree with their final ones below row `400 n`,
    and the generator register at some state. -/
def Phi (c : Dev nD) : (n : ℕ) → n ≤ cfg0.N → sProp 𝕄
  | 0, _ => Pipeline.ΦA spec0 c
  | n + 1, _ => iprop(∃ d1 d2, ⌜Agree m c (n + 1) d1 d2⌝ ∗ iprop(owns (c : Thread nD τ) sc0 fullShare (prodXW m c) ∗ owns (c : Thread nD τ) sc1 fullShare d1 ∗ owns (c : Thread nD τ) sc2 fullShare d2) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(∃ d1 d2, ⌜Agree m c (n + 1) d1 d2⌝ ∗ iprop(owns (c : Thread nD τ) sc0 fullShare (prodXW m c) ∗ owns (c : Thread nD τ) sc1 fullShare d1 ∗ owns (c : Thread nD τ) sc2 fullShare d2) ∗ (∃ r, prngReg c r)) := rfl

theorem Phi_pos (c : Dev nD) (n : ℕ) (h : n ≤ cfg0.N) (hz : n ≠ 0) :
    Phi m c n h = iprop(∃ d1 d2, ⌜Agree m c n d1 d2⌝ ∗ iprop(owns (c : Thread nD τ) sc0 fullShare (prodXW m c) ∗ owns (c : Thread nD τ) sc1 fullShare d1 ∗ owns (c : Thread nD τ) sc2 fullShare d2) ∗ (∃ r, prngReg c r)) := by
  cases n with
  | zero => exact absurd rfl hz
  | succ n => rfl

/-- The proof data of the one pipeline on core `c`, relational: the arrays as the region finds them; each input's
    staging buffer is left as the body found it; the output's staging buffer is left at `outAt t` at the points of the
    second pass and is not constrained at those of the first (the body does not touch it there, and what the pipeline
    writes back from it after point 24 is overwritten by the last point); the invariant `Phi`; nothing owed, full shares. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => ∀ h : passTwo (grid0.coords t), X = outAt m c t h
  Φ t := Phi m c t.val (Nat.le_of_lt_succ t.isLt)
  q _ := fullShare
  owed _ := 0

theorem rdat_A (c : Dev nD) (w : Fin cfg0.W) : (rdat m c).A w = V m c (Pipeline.arrRef spec0 w) := by
  dsimp only [rdat]

theorem rdat_after8 (c : Dev nD) (t : Fin cfg0.N) (Y X) :
    (rdat m c).after 8 t Y X ↔ ∀ h : passTwo (grid0.coords t), X = outAt m c t h := by
  dsimp only [rdat]; exact Iff.rfl

end Cert.KernelIdeal.Hand

end
-- ==== Proof.KRunA.lean ====
/-
  The kernel body at the grid's first point, as one triple.

  At point 0 the first two branches run: the body stores `x · W0` into the first scratch buffer (all of it), reads it
  back, and stores the first row block of `h1 · W1` and of `h1 · Wp[0:256]` into rows 0 … 399 of the second and third
  scratch buffers. The output's staging buffer is not touched. The triple names every store as a piece (a rectangle and
  the value stored through it); the pieces are found by running the body.
-/
import proofs.«166813_g11562051961570_week1_w4_920_18_alg».proof.Proof.KBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body at the first point: from the inputs' buffers at their contents, the output's buffer and the first scratch
    buffer at anything, the second and third scratch buffers at `y1`, `y2`, it runs to the inputs' buffers unchanged,
    the output's buffer at something, and each scratch buffer with its pieces written over what it held. -/
noncomputable def runStart (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    { L : List (View.Piece (Elt F) S10000x256 .bf16) × List (View.Piece (Elt F) S10000x256 .bf16) × List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare y1 ∗ owns (c : Thread nD τ) arg13 fullShare y2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ f, arg11.view.loc (c : Thread nD τ) ↦[arg11.view.set]{fullShare} arg11.view.writes (Elt F) f L.1) ∗ (arg12.view.loc (c : Thread nD τ) ↦[arg12.view.set]{fullShare} arg12.view.writes (Elt F) (harg12.unread y1) L.2.1) ∗ (arg13.view.loc (c : Thread nD τ) ↦[arg13.view.set]{fullShare} arg13.view.writes (Elt F) (harg13.unread y2) L.2.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_, ?_), fun E K => ?run⟩
  case run =>
    dsimp only
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]; · iexists _; iexact HS0
    isplitl [HS1]; · iexact HS1
    iexact HS2

/-- The pieces the first point stores: `x · W0` over all of the first scratch buffer, and over rows `0 … 399` of the second
    and third the first row block of `h1 · W1` and of `h1 · Wp[0:256]`, computed from the product just stored. -/
theorem runStart_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    (runStart c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y1 y2).1
      = ([⟨Rect.unit (s := S10000x256) ![0, 0] S10000x256.size inb_S10000x256_S10000x256_0_0, k0_pay2 x2 x1⟩],
         [⟨Rect.unit (s := S10000x256) (k0_off1 i) S400x256.size (k0_off1_inb i hc1), k0_pay4 x0 (k0_pay2 x2 x1) x3 x4⟩],
         [⟨Rect.unit (s := S10000x256) (k0_off1 i) S400x256.size (k0_off1_inb i hc1), k0_pay5 x0 (k0_pay2 x2 x1) x3 (topRows x6)⟩]) := by
  unfold runStart
  dsimp only
  sl_unfold_run_names
  simp only [View.readAt_eq_ld, Memref.IsWhole.read_unread, View.ld_unit_zero (S := S400x10000) hz2, View.ld_unit_zero (S := S1x256) hz2, View.ld_unit_zero (S := S256x256) hz2, View.ld_unit_zero (S := S10000x256) hz2]
  have e := View.readCov_unit_zero (Val := Elt F) (S := S10000x256) (e := .bf16) arg11.view hz2 inb_S10000x256_S10000x256_0_0 (k0_pay2 x2 x1)
  refine Prod.ext rfl (Prod.ext ?_ ?_)
  · exact congrArg (fun z => [(⟨Rect.unit (s := S10000x256) (k0_off1 i) S400x256.size (k0_off1_inb i hc1), k0_pay4 x0 z x3 x4⟩ : View.Piece (Elt F) S10000x256 .bf16)]) e
  · exact congrArg (fun z => [(⟨Rect.unit (s := S10000x256) (k0_off1 i) S400x256.size (k0_off1_inb i hc1), k0_pay5 x0 z x3 (topRows x6)⟩ : View.Piece (Elt F) S10000x256 .bf16)]) e

end Cert.KernelIdeal.Hand

end
-- ==== Proof.KRunB.lean ====
/-
  The kernel body at a later point of the first pass (points 1 … 24), as one triple.

  Only the second branch runs: the body reads `x · W0` from the first scratch buffer (left as it is) and stores row block
  `i` of `h1 · W1` and of `h1 · Wp[0:256]` into rows `400 i … 400 i + 399` of the second and third scratch buffers. The
  output's staging buffer is not touched.
-/
import proofs.«166813_g11562051961570_week1_w4_920_18_alg».proof.Proof.KBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body at a later point of the first pass: the inputs' buffers and the first scratch buffer (at `y0`) come back
    unchanged, the output's buffer at something, the second and third scratch buffers with their pieces written over
    `y1`, `y2`. -/
noncomputable def runFirstPass (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y0 y1 y2 : Vec F S10000x256 .bf16) :
    { L : List (View.Piece (Elt F) S10000x256 .bf16) × List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y0 ∗ owns (c : Thread nD τ) arg12 fullShare y1 ∗ owns (c : Thread nD τ) arg13 fullShare y2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y0 ∗ (arg12.view.loc (c : Thread nD τ) ↦[arg12.view.set]{fullShare} arg12.view.writes (Elt F) (harg12.unread y1) L.1) ∗ (arg13.view.loc (c : Thread nD τ) ↦[arg13.view.set]{fullShare} arg13.view.writes (Elt F) (harg13.unread y2) L.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    dsimp only
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _; isplitr; · ipureintro; exact harg11.read_unread _
      iexact HS0
    isplitl [HS1]; · iexact HS1
    iexact HS2

/-- The pieces a later point of the first pass stores: over rows `400 i … 400 i + 399` of the second and third scratch
    buffers, row block `i` of `h1 · W1` and of `h1 · Wp[0:256]`, computed from the first scratch buffer's contents. -/
theorem runFirstPass_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : passOne i) (hc2 : ¬passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y0 y1 y2 : Vec F S10000x256 .bf16) :
    (runFirstPass c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y0 y1 y2).1
      = ([⟨Rect.unit (s := S10000x256) (k0_off1 i) S400x256.size (k0_off1_inb i hc1), k0_pay4 x0 y0 x3 x4⟩],
         [⟨Rect.unit (s := S10000x256) (k0_off1 i) S400x256.size (k0_off1_inb i hc1), k0_pay5 x0 y0 x3 (topRows x6)⟩]) := by
  unfold runFirstPass
  dsimp only
  simp only [View.readAt_eq_ld, Memref.IsWhole.read_unread, View.ld_unit_zero (S := S400x10000) hz2, View.ld_unit_zero (S := S1x256) hz2, View.ld_unit_zero (S := S256x256) hz2, View.ld_unit_zero (S := S10000x256) hz2]

end Cert.KernelIdeal.Hand

end
-- ==== Proof.KRunC.lean ====
/-
  The kernel body at a point of the second pass (points 25 … 49), as one triple.

  Only the third branch runs: the body reads all of `h1 · W1` from the second scratch buffer and row block `24 - i` of
  `h1 · Wp[0:256]` from the third (both left as they are) and stores row block `24 - i` of the output into the output's
  staging buffer, all of it. The first scratch buffer is not touched.
-/
import proofs.«166813_g11562051961570_week1_w4_920_18_alg».proof.Proof.KBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body at a point of the second pass: the inputs' buffers and the second and third scratch buffers (at `y1`,
    `y2`) come back unchanged, the output's buffer with its pieces written. -/
noncomputable def runSecondPass (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : ¬passOne i) (hc2 : passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    { L : List (View.Piece (Elt F) S400x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg12 fullShare y1 ∗ owns (c : Thread nD τ) arg13 fullShare y2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ owns (c : Thread nD τ) arg12 fullShare y1 ∗ owns (c : Thread nD τ) arg13 fullShare y2) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS1]
    · iexists _; isplitr; · ipureintro; exact harg12.read_unread _
      iexact HS1
    iexists _; isplitr; · ipureintro; exact harg13.read_unread _
    iexact HS2

/-- The piece a point of the second pass stores: over all of the output's staging buffer, row block `24 - i` of the
    output, computed from the second scratch buffer's contents, rows `256 … 511` of the head's weights, and rows
    `400 (24 - i) …` of the third scratch buffer. -/
theorem runSecondPass_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S400x256 .f32) (harg10 : arg10.IsWhole) (arg11 : Memref sig .tc .vmem S10000x256 .bf16) (harg11 : arg11.IsWhole) (arg12 : Memref sig .tc .vmem S10000x256 .bf16) (harg12 : arg12.IsWhole) (arg13 : Memref sig .tc .vmem S10000x256 .bf16) (harg13 : arg13.IsWhole) (hc0 : ¬atStart i) (hc1 : ¬passOne i) (hc2 : passTwo i)
    (x0 : Vec F S400x10000 .f32) (x1 : Vec F S10000x256 .bf16) (x2 : Vec F S256x256 .f32) (x3 : Vec F S1x256 .f32) (x4 : Vec F S256x256 .f32) (x5 : Vec F S1x256 .f32) (x6 : Vec F S512x256 .f32) (x7 : Vec F S1x256 .f32) (y1 y2 : Vec F S10000x256 .bf16) :
    (runSecondPass c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y1 y2).1
      = [⟨Rect.unit (s := S400x256) ![0, 0] S400x256.size inb_S400x256_S400x256_0_0,
          k0_pay6 x0 y1 x5 (botRows x6) (rowBlock i hc2 y2) x7⟩] := by
  unfold runSecondPass
  dsimp only
  simp only [View.readAt_eq_ld, Memref.IsWhole.read_unread, View.ld_unit_zero (S := S400x10000) hz2, View.ld_unit_zero (S := S1x256) hz2, View.ld_unit_zero (S := S256x256) hz2, View.ld_unit_zero (S := S10000x256) hz2]

end Cert.KernelIdeal.Hand

end
-- ==== Proof.KData.lean ====
/-
  The body obligation of the kernel's one pipeline against the relational proof data, the frame run, and the frame.

  At every grid point the body is handed each input's staging buffer at the window's block there (fetched at this point
  or left from the last one: the block index has not moved), and the region's invariant. Point 0 runs the first two
  branches and establishes the invariant after one point; a later point of the first pass extends the rows on which the
  second and third scratch buffers agree with their final contents by the 400 rows it stores; from point 25 on those
  buffers are complete and the body stores the output block. The run then follows from the library's launch theorem
  for relational proof data with a tracking invariant, and the frame claim from its post.
-/
import proofs.«166813_g11562051961570_week1_w4_920_18_alg».proof.Proof.KDefs
import proofs.«166813_g11562051961570_week1_w4_920_18_alg».proof.Proof.KRunA
import proofs.«166813_g11562051961570_week1_w4_920_18_alg».proof.Proof.KRunB
import proofs.«166813_g11562051961570_week1_w4_920_18_alg».proof.Proof.KRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the whole-shape rectangle at zero offsets leaves its payload, whatever the buffer held. -/
theorem read_whole_piece {κ : Kind} {sp : Space} {S : Shape} {e : EltTy} {Val : EltTy → Type} (v : View sig κ sp S e) (f : v.ty.Contents Val)
    {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

/-! ## Each input's staging buffer holds its block -/

theorem finds0 (c : Dev nD) (t : Fin cfg0.N) (Y) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk
  rw [rdat_A]; try rfl
theorem finds1 (c : Dev nD) (t : Fin cfg0.N) (Y) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk
  rw [rdat_A]; try rfl
theorem finds2 (c : Dev nD) (t : Fin cfg0.N) (Y) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk
  rw [rdat_A]; try rfl
theorem finds3 (c : Dev nD) (t : Fin cfg0.N) (Y) (h : (rdat m c).Finds 3 t Y) : Y = iblk m c 3 t := by
  obtain ⟨d, rfl⟩ := RDat.finds_in_eq_fetched (rdat m c) 3 rfl (fun _ _ _ => rfl) (fun _ _ _ h => h) t Y h
  unfold RDat.fetched RDat.blockOf iblk
  rw [rdat_A]; try rfl
theorem finds4 (c : Dev nD) (t : Fin cfg0.N) (Y) (h : (rdat m c).Finds 4 t Y) : Y = iblk m c 4 t := by
  obtain ⟨d, rfl⟩ := RDat.finds_in_eq_fetched (rdat m c) 4 rfl (fun _ _ _ => rfl) (fun _ _ _ h => h) t Y h
  unfold RDat.fetched RDat.blockOf iblk
  rw [rdat_A]; try rfl
theorem finds5 (c : Dev nD) (t : Fin cfg0.N) (Y) (h : (rdat m c).Finds 5 t Y) : Y = iblk m c 5 t := by
  obtain ⟨d, rfl⟩ := RDat.finds_in_eq_fetched (rdat m c) 5 rfl (fun _ _ _ => rfl) (fun _ _ _ h => h) t Y h
  unfold RDat.fetched RDat.blockOf iblk
  rw [rdat_A]; try rfl
theorem finds6 (c : Dev nD) (t : Fin cfg0.N) (Y) (h : (rdat m c).Finds 6 t Y) : Y = iblk m c 6 t := by
  obtain ⟨d, rfl⟩ := RDat.finds_in_eq_fetched (rdat m c) 6 rfl (fun _ _ _ => rfl) (fun _ _ _ h => h) t Y h
  unfold RDat.fetched RDat.blockOf iblk
  rw [rdat_A]; try rfl
theorem finds7 (c : Dev nD) (t : Fin cfg0.N) (Y) (h : (rdat m c).Finds 7 t Y) : Y = iblk m c 7 t := by
  obtain ⟨d, rfl⟩ := RDat.finds_in_eq_fetched (rdat m c) 7 rfl (fun _ _ _ => rfl) (fun _ _ _ h => h) t Y h
  unfold RDat.fetched RDat.blockOf iblk
  rw [rdat_A]; try rfl

/-! ## What the stores of the first pass leave in the second and third scratch buffers -/

/-- The offsets of the first pass's stores at point `t`: row `400 t`, column 0. -/
theorem off1_eq (t : Fin cfg0.N) (ht : t.val < 25) : k0_off1 (grid0.coords t) = ![400 * t.val, 0] := by
  rw [k0_off1_eq, coord_one, Nat.mod_eq_of_lt ht]

/-- After point `t` of the first pass the two buffers agree with their final contents on the rows below `400 (t + 1)`:
    the rows `400 t … 400 t + 399` are the block just stored, the rows below are as before. -/
theorem agree_step (c : Dev nD) (t : Fin cfg0.N) (ht : t.val < 25) (hc1 : passOne (grid0.coords t))
    (d1 d2 : Vec F S10000x256 .bf16) (hprev : Agree m c t.val d1 d2) :
    Agree m c (t.val + 1)
      (sc1.view.read (Elt F) (sc1.view.writes (Elt F) (hsc1.unread d1)
        [⟨Rect.unit (s := S10000x256) (k0_off1 (grid0.coords t)) S400x256.size (k0_off1_inb (grid0.coords t) hc1), k0_pay4 (iblk m c 0 t) (prodXW m c) (iblk m c 3 t) (iblk m c 4 t)⟩]))
      (sc2.view.read (Elt F) (sc2.view.writes (Elt F) (hsc2.unread d2)
        [⟨Rect.unit (s := S10000x256) (k0_off1 (grid0.coords t)) S400x256.size (k0_off1_inb (grid0.coords t) hc1), k0_pay5 (iblk m c 0 t) (prodXW m c) (iblk m c 3 t) (topRows (iblk m c 6 t))⟩])) := by
  intro j hj
  by_cases hrow : (j 0).val < 400 * t.val
  · constructor
    · rw [View.read_writes_cons_rows_of_not_mem sc1.view (hsc1.unread d1) _ _ [] j (off1_eq t ht) (rfl : S400x256.size 0 = 400) (Or.inl hrow)]
      rw [View.writes_nil, hsc1.read_unread]
      exact (hprev j hrow).1
    · rw [View.read_writes_cons_rows_of_not_mem sc2.view (hsc2.unread d2) _ _ [] j (off1_eq t ht) (rfl : S400x256.size 0 = 400) (Or.inl hrow)]
      rw [View.writes_nil, hsc2.read_unread]
      exact (hprev j hrow).2
  · have hp : (j 0).val - 400 * t.val < 400 := by omega
    have hx0 : (j 0).val = 400 * t.val + (⟨(j 0).val - 400 * t.val, hp⟩ : Fin 400).val := by show (j 0).val = 400 * t.val + ((j 0).val - 400 * t.val); omega
    constructor
    · rw [View.read_writes_cons_rows_of_mem sc1.view (hsc1.unread d1) (k0_off1_inb (grid0.coords t) hc1) (k0_pay4 (iblk m c 0 t) (prodXW m c) (iblk m c 3 t) (iblk m c 4 t)) [] j (ValueIdx.ix2 (⟨(j 0).val - 400 * t.val, hp⟩ : Fin 400) (colOf j)) (off1_eq t ht) hx0 rfl]
      exact (hidAll_block m c t ht ⟨(j 0).val - 400 * t.val, hp⟩ (colOf j) j hx0 rfl).symm
    · rw [View.read_writes_cons_rows_of_mem sc2.view (hsc2.unread d2) (k0_off1_inb (grid0.coords t) hc1) (k0_pay5 (iblk m c 0 t) (prodXW m c) (iblk m c 3 t) (topRows (iblk m c 6 t))) [] j (ValueIdx.ix2 (⟨(j 0).val - 400 * t.val, hp⟩ : Fin 400) (colOf j)) (off1_eq t ht) hx0 rfl]
      exact (headAll_block m c t ht ⟨(j 0).val - 400 * t.val, hp⟩ (colOf j) j hx0 rfl).symm

/-- Before the first point nothing is asked of the two buffers. -/
theorem agree_zero (c : Dev nD) (d1 d2 : Vec F S10000x256 .bf16) : Agree m c 0 d1 d2 :=
  fun j hj => absurd hj (by omega)

/-! ## The body obligation, at a generic point -/

/-- What the body is called with at point `t`, the windows one by one: the invariant, nothing owed, and each window's
    current staging buffer at the contents `Y w` the pipeline may have left there. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8))

/-- and what it returns: the invariant at the next point, and each buffer at contents its relation allows. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X))

theorem Phi_castSucc (c : Dev nD) (t : Fin cfg0.N) :
    (rdat m c).Φ t.castSucc = Phi m c t.val (Nat.le_of_lt t.isLt) := by
  dsimp only [rdat]; simp only [Fin.coe_castSucc]

set_option maxHeartbeats 4000000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0 m c t _ (hY 0), finds1 m c t _ (hY 1), finds2 m c t _ (hY 2), finds3 m c t _ (hY 3), finds4 m c t _ (hY 4), finds5 m c t _ (hY 5), finds6 m c t _ (hY 6), finds7 m c t _ (hY 7)]
  rw [show (rdat m c).owesAt () t.succ = (rdat m c).owesAt () t.castSucc from rfl]
  rw [show (rdat m c).Φ t.succ = Phi m c (t.val + 1) t.isLt from rfl, Phi_succ, Phi_castSucc]
  have hN : t.val < 50 := lt_of_lt_of_eq t.isLt N50
  by_cases h0 : t.val = 0
  · -- the first point
    have hc0 : atStart (grid0.coords t) := (atStart_iff t).mpr h0
    have hc1 : passOne (grid0.coords t) := (passOne_iff t).mpr (by omega)
    have hc2 : ¬passTwo (grid0.coords t) := fun h => by have := (passTwo_iff t).mp h; omega
    obtain rfl : t = pt0 := Fin.ext h0
    rw [Phi_zero m c _ _ rfl, PhiA_eq]
    iintro ⟨⟨⟨⟨%d0, HS0⟩, ⟨%d1, HS1⟩, ⟨%d2, HS2⟩⟩, Hg⟩, Ho, H0, H1, H2, H3, H4, H5, H6, H7, H8⟩
    iapply ((runStart c (grid0.coords pt0) _ _ _ _ _ _ _ _ _ _ _ _ _ _ _ _ _ _ _ _ _ _ _ _ hc0 hc1 hc2 (iblk m c 0 pt0) (iblk m c 1 pt0) (iblk m c 2 pt0) (iblk m c 3 pt0) (iblk m c 4 pt0) (iblk m c 5 pt0) (iblk m c 6 pt0) (iblk m c 7 pt0) d1 d2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexact HS1
    isplitl [HS2]; · iexact HS2
    rw [runStart_pieces]
    dsimp only
    iintro ⟨H0, H1, H2, H3, H4, H5, H6, H7, ⟨%d8, H8⟩, ⟨%f0, HS0⟩, HS1, HS2⟩
    isplitl [HS0 HS1 HS2 Hg]
    · iexists _, _
      isplitr
      · ipureintro; exact agree_step m c pt0 (by show (0 : ℕ) < 25; omega) hc1 d1 d2 (agree_zero m c d1 d2)
      isplitl [HS0 HS1 HS2]
      · isplitl [HS0]
        · unfold owns; iexists _; isplitr
          swap; · iexact HS0
          ipureintro
          exact read_whole_piece (S := S10000x256) _ _ hz2 inb_S10000x256_S10000x256_0_0 _
        isplitl [HS1]
        · unfold owns; iexists _; isplitr
          swap; · iexact HS1
          ipureintro; rfl
        unfold owns; iexists _; isplitr
        swap; · iexact HS2
        ipureintro; rfl
      iexact Hg
    isplitl [Ho]; · iexact Ho
    isplitl [H0]
    · iexists _; isplitr; · ipureintro; exact (rfl : iblk m c 0 _ = iblk m c 0 _)
      iexact H0
    isplitl [H1]
    · iexists _; isplitr; · ipureintro; exact (rfl : iblk m c 1 _ = iblk m c 1 _)
      iexact H1
    isplitl [H2]
    · iexists _; isplitr; · ipureintro; exact (rfl : iblk m c 2 _ = iblk m c 2 _)
      iexact H2
    isplitl [H3]
    · iexists _; isplitr; · ipureintro; exact (rfl : iblk m c 3 _ = iblk m c 3 _)
      iexact H3
    isplitl [H4]
    · iexists _; isplitr; · ipureintro; exact (rfl : iblk m c 4 _ = iblk m c 4 _)
      iexact H4
    isplitl [H5]
    · iexists _; isplitr; · ipureintro; exact (rfl : iblk m c 5 _ = iblk m c 5 _)
      iexact H5
    isplitl [H6]
    · iexists _; isplitr; · ipureintro; exact (rfl : iblk m c 6 _ = iblk m c 6 _)
      iexact H6
    isplitl [H7]
    · iexists _; isplitr; · ipureintro; exact (rfl : iblk m c 7 _ = iblk m c 7 _)
      iexact H7
    iexists d8; isplitr
    · ipureintro; exact (rdat_after8 m c _ _ d8).mpr (fun h => absurd h hc2)
    iexact H8
  · by_cases h1 : t.val < 25
    · -- a later point of the first pass
      have hc0 : ¬atStart (grid0.coords t) := fun h => h0 ((atStart_iff t).mp h)
      have hc1 : passOne (grid0.coords t) := (passOne_iff t).mpr h1
      have hc2 : ¬passTwo (grid0.coords t) := fun h => by have := (passTwo_iff t).mp h; omega
      rw [Phi_pos m c _ _ h0]
      iintro ⟨⟨%d1, %d2, %hag, ⟨HS0, HS1, HS2⟩, Hg⟩, Ho, H0, H1, H2, H3, H4, H5, H6, H7, H8⟩
      iapply ((runFirstPass c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (prodXW m c) d1 d2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      rw [runFirstPass_pieces]
      dsimp only
      iintro ⟨H0, H1, H2, H3, H4, H5, H6, H7, ⟨%d8, H8⟩, HS0, HS1, HS2⟩
      isplitl [HS0 HS1 HS2 Hg]
      · iexists _, _
        isplitr
        · ipureintro; exact agree_step m c t h1 hc1 d1 d2 hag
        isplitl [HS0 HS1 HS2]
        · isplitl [HS0]; · iexact HS0
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]
      · iexists _; isplitr; · ipureintro; exact (rfl : iblk m c 0 _ = iblk m c 0 _)
        iexact H0
      isplitl [H1]
      · iexists _; isplitr; · ipureintro; exact (rfl : iblk m c 1 _ = iblk m c 1 _)
        iexact H1
      isplitl [H2]
      · iexists _; isplitr; · ipureintro; exact (rfl : iblk m c 2 _ = iblk m c 2 _)
        iexact H2
      isplitl [H3]
      · iexists _; isplitr; · ipureintro; exact (rfl : iblk m c 3 _ = iblk m c 3 _)
        iexact H3
      isplitl [H4]
      · iexists _; isplitr; · ipureintro; exact (rfl : iblk m c 4 _ = iblk m c 4 _)
        iexact H4
      isplitl [H5]
      · iexists _; isplitr; · ipureintro; exact (rfl : iblk m c 5 _ = iblk m c 5 _)
        iexact H5
      isplitl [H6]
      · iexists _; isplitr; · ipureintro; exact (rfl : iblk m c 6 _ = iblk m c 6 _)
        iexact H6
      isplitl [H7]
      · iexists _; isplitr; · ipureintro; exact (rfl : iblk m c 7 _ = iblk m c 7 _)
        iexact H7
      iexists d8; isplitr
      · ipureintro; exact (rdat_after8 m c _ _ d8).mpr (fun h => absurd h hc2)
      iexact H8
    · -- a point of the second pass
      have h2 : 25 ≤ t.val := by omega
      have hc0 : ¬atStart (grid0.coords t) := fun h => h0 ((atStart_iff t).mp h)
      have hc1 : ¬passOne (grid0.coords t) := fun h => h1 ((passOne_iff t).mp h)
      have hc2 : passTwo (grid0.coords t) := (passTwo_iff t).mpr h2
      rw [Phi_pos m c _ _ h0]
      iintro ⟨⟨%d1, %d2, %hag, ⟨HS0, HS1, HS2⟩, Hg⟩, Ho, H0, H1, H2, H3, H4, H5, H6, H7, H8⟩
      obtain ⟨rfl, rfl⟩ := hag.eq_all m h2
      iapply ((runSecondPass c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (hidAll m c) (headAll m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS1]; · iexact HS1
      isplitl [HS2]; · iexact HS2
      rw [runSecondPass_pieces]
      iintro ⟨H0, H1, H2, H3, H4, H5, H6, H7, ⟨%f8, H8⟩, HS1, HS2⟩
      isplitl [HS0 HS1 HS2 Hg]
      · iexists _, _
        isplitr
        · ipureintro; exact fun j _ => ⟨rfl, rfl⟩
        isplitl [HS0 HS1 HS2]
        · isplitl [HS0]; · iexact HS0
          isplitl [HS1]; · iexact HS1
          iexact HS2
        iexact Hg
      isplitl [Ho]; · iexact Ho
      isplitl [H0]
      · iexists _; isplitr; · ipureintro; exact (rfl : iblk m c 0 _ = iblk m c 0 _)
        iexact H0
      isplitl [H1]
      · iexists _; isplitr; · ipureintro; exact (rfl : iblk m c 1 _ = iblk m c 1 _)
        iexact H1
      isplitl [H2]
      · iexists _; isplitr; · ipureintro; exact (rfl : iblk m c 2 _ = iblk m c 2 _)
        iexact H2
      isplitl [H3]
      · iexists _; isplitr; · ipureintro; exact (rfl : iblk m c 3 _ = iblk m c 3 _)
        iexact H3
      isplitl [H4]
      · iexists _; isplitr; · ipureintro; exact (rfl : iblk m c 4 _ = iblk m c 4 _)
        iexact H4
      isplitl [H5]
      · iexists _; isplitr; · ipureintro; exact (rfl : iblk m c 5 _ = iblk m c 5 _)
        iexact H5
      isplitl [H6]
      · iexists _; isplitr; · ipureintro; exact (rfl : iblk m c 6 _ = iblk m c 6 _)
        iexact H6
      isplitl [H7]
      · iexists _; isplitr; · ipureintro; exact (rfl : iblk m c 7 _ = iblk m c 7 _)
        iexact H7
      iexists (outAt m c t hc2); isplitr
      · ipureintro; exact (rdat_after8 m c _ _ _).mpr (fun _ => rfl)
      unfold owns; iexists _; isplitr
      swap; · iexact H8
      ipureintro
      exact read_whole_piece (S := S400x256) _ _ hz2 inb_S400x256_S400x256_0_0 _

/-- The library's body obligation for relational proof data, at every point. -/
theorem body_obligation (c : Dev nD) : (rdat (F := F) m c).BodyObligation (defs₀ (F := F)) Variants.none () Set.univ := fun t Y hY => by
  rw [bigSep_W0, bigSep_W0]
  exact sound_body m c t Y hY

/-- What the launch hands the region is the invariant before the first point. -/
theorem hin (c : Dev nD) : Pipeline.ΦA spec0 c ⊢ (rdat m c).Φ 0 := by
  rw [show (rdat m c).Φ 0 = Phi m c 0 (Nat.zero_le _) from rfl, Phi_zero m c 0 _ rfl]
  try exact Idealize.SL.BI.Entails.refl _

/-- After the last point the invariant gives the scratch buffers back at some contents. -/
theorem hout (c : Dev nD) : (rdat m c).Φ (Fin.last cfg0.N) ⊢ Pipeline.ΦA spec0 c := by
  rw [show (rdat m c).Φ (Fin.last cfg0.N) = Phi m c (Fin.last cfg0.N).val (Nat.le_of_lt_succ (Fin.last cfg0.N).isLt) from rfl,
    Phi_pos m c _ _ (by rw [Fin.val_last, N50]; omega), PhiA_eq]
  iintro ⟨%d1, %d2, -, ⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has each array of the pipeline at contents
    the relational proof data allows after every write-back (an input: its entry contents) and every other unscoped
    buffer at its region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := hin m) (hout := hout m)

/-- The frame: the eight argument arrays end as launched — the four the pipeline stages by the input clause of the
    run's post, the other four by its clause for unstaged buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Eq.mp (congrFun ((rdat m c).ArrAt_in 0 rfl _) _) ((h c).1 0)).trans ((rdat_A m c 0).trans (V_main_arg1 m c)),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c),
      (Eq.mp (congrFun ((rdat m c).ArrAt_in 6 rfl _) _) ((h c).1 6)).trans ((rdat_A m c 6).trans (V_main_arg6 m c)),
      ((h c).2 main_arg7 (Pipeline.mem_restRefs_of main_arg7 (by decide) (by decide))).trans (V_main_arg7 m c)⟩) (run_main m ρ)

end Cert.KernelIdeal.Hand

end
-- ==== Proof.KFinal.lean ====
/-
  What the output array holds once the pipeline has written back every block.

  The output window holds a 400 × 256 block of the 10000 × 256 result. It is written back after point 24 (the last
  point of the first pass, whose block is row block 0 and whose staging contents nothing constrains) and after every
  point `t` of the second pass, which holds row block `49 - t` and leaves there `outAt t`. So the array after all
  write-backs is the entry contents overwritten 26 times, in point order, and each row's LAST writer is the point
  `49 - r / 400` of the second pass: the unconstrained write into row block 0 is overwritten by point 49. The
  invariant carried over the write-backs says exactly that: every row whose second-pass point is already past holds
  its final value, whatever contents the array may hold; a row's block `b` and place `p` in it come from
  `(400 b + p) / 400 = b`, `(400 b + p) mod 400 = p`.
-/
import proofs.«166813_g11562051961570_week1_w4_920_18_alg».proof.Proof.KDefs
import Idealize.ShloMosaic.Lib.Pipeline.Value
import Idealize.ShloMosaic.Lib.Pipeline.Cells

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The output window is written back after point 24 and after every later point. -/
theorem flush8 : ∀ t : Fin cfg0.N, (cfg0.win 8).flush t = true ↔ 24 ≤ t.val :=
  (by decide +kernel : ∀ t : Fin grid0.N, win0_8.flush t = true ↔ 24 ≤ t.val)

/-- In the second pass point `t` holds row block `49 - t`, all columns. -/
theorem idx8 : ∀ t : Fin cfg0.N, 25 ≤ t.val → win0_8.index t (0 : Fin 2) = 49 - t.val ∧ win0_8.index t (1 : Fin 2) = 0 :=
  (by decide +kernel : ∀ t : Fin grid0.N, 25 ≤ t.val → win0_8.index t (0 : Fin 2) = 49 - t.val ∧ win0_8.index t (1 : Fin 2) = 0)

/-- An index of the output array lies in point `t`'s block iff each coordinate is in the block's range on its axis. -/
theorem mem_blk8 (t : Fin cfg0.N) (i : S10000x256.Idx) :
    i ∈ ((cfg0.win 8).blk t).view.set ↔ ∀ a : Fin 2, win0_8.index t a * S400x256.size a ≤ (i a).val ∧ (i a).val < win0_8.index t a * S400x256.size a + S400x256.size a := by
  show i ∈ ((View.whole main_v0).slice (win0_8.rect t)).set ↔ _
  rw [View.set_slice_whole, Rect.mem_set_unit]
  exact Iff.rfl

/-- A row of the final output, read as a row of what the point that stores it stores. -/
theorem outAll_at (c : Dev nD) (i : S10000x256.Idx) (t : Fin cfg0.N) (h : passTwo (grid0.coords t)) (ht : ptOfRow2 i = t) :
    outAll m c i = outAt m c t h (ValueIdx.ix2 (inBlock i) (colOf i)) := by
  subst ht; rfl

/-- THE LAST WRITER. Of any contents the output array may hold after the write-backs below point `n`: every row whose
    storing point `49 - r / 400` of the second pass is below `n` holds its final value. A later write-back either covers
    the row again, with the same value (the block of `outAll`), or does not touch it. What the write-back after point
    24 puts in the first row block is not constrained, and nothing is claimed of it until point 49 has overwritten it. -/
theorem last_writer (c : Dev nD) (n : ℕ) (hn : n ≤ cfg0.N) :
    ∀ Fb : Buf (Elt F) ((cfg0.win 8).arr.view.loc (c.tc : Thread nD τ)), (rdat m c).ArrAt 8 n Fb →
      ∀ i : S10000x256.Idx, 49 - (i 0).val / 400 < n → Fb i = outAll m c i := by
  induction n with
  | zero => intro Fb _ i hi; exact absurd hi (Nat.not_lt_zero _)
  | succ n ih =>
    intro Fb h i hi
    have hn' : n < cfg0.N := hn
    have hn50 : n < 50 := lt_of_lt_of_eq hn' N50
    have hr := row_lt i
    have hc := col_lt i
    by_cases h25 : n < 25
    · exfalso; omega
    · have h25' : 25 ≤ n := Nat.le_of_not_lt h25
      rw [show n + 1 = (⟨n, hn'⟩ : Fin cfg0.N).val + 1 from rfl, (rdat m c).ArrAt_succ 8 ⟨n, hn'⟩,
        if_pos ((flush8 ⟨n, hn'⟩).mpr (by show 24 ≤ n; omega))] at h
      obtain ⟨G₀, X, hG₀, ⟨Y, -, hYX⟩, rfl⟩ := h
      have hp : passTwo (grid0.coords ⟨n, hn'⟩) := (passTwo_iff ⟨n, hn'⟩).mpr h25'
      have hX : X = outAt m c ⟨n, hn'⟩ hp := (rdat_after8 m c ⟨n, hn'⟩ Y X).mp hYX hp
      have e0 : win0_8.index ⟨n, hn'⟩ (0 : Fin 2) = 49 - n := (idx8 ⟨n, hn'⟩ h25').1
      have e1 : win0_8.index ⟨n, hn'⟩ (1 : Fin 2) = 0 := (idx8 ⟨n, hn'⟩ h25').2
      by_cases hin : i ∈ ((cfg0.win 8).blk ⟨n, hn'⟩).view.set
      · obtain ⟨y, -, hy⟩ := Finset.mem_map.mp hin
        have hy0 : win0_8.index ⟨n, hn'⟩ (0 : Fin 2) * 400 + 1 * (y 0).val = (i 0).val :=
          congrArg (fun j : S10000x256.Idx => (j 0).val) hy
        have hy1 : win0_8.index ⟨n, hn'⟩ (1 : Fin 2) * 256 + 1 * (y 1).val = (i 1).val :=
          congrArg (fun j : S10000x256.Idx => (j 1).val) hy
        have by0 : (y 0).val < 400 := (y 0).isLt
        rw [e0] at hy0
        rw [e1] at hy1
        have hpt : ptOfRow2 i = ⟨n, hn'⟩ := Fin.ext (by show 49 - (i 0).val / 400 = n; omega)
        have hw := View.write_emb_of_mem (v := ((cfg0.win 8).blk ⟨n, hn'⟩).view) (Val := Elt F) G₀
          ((cfg0.win 8).cut (grid0.coords ⟨n, hn'⟩) X) (M := Finset.univ) (Finset.mem_univ y)
        rw [hy] at hw
        rw [hw, outAll_at m c i ⟨n, hn'⟩ hp hpt, hX]
        refine (cast_eq _ _).trans ?_
        refine congrArg (outAt m c ⟨n, hn'⟩ hp) (funext fun a => Fin.ext ?_)
        match a with
        | ⟨0, _⟩ => show (y 0).val = (i 0).val % 400; omega
        | ⟨1, _⟩ => show (y 1).val = (i 1).val; omega
      · rw [View.write_of_not_mem _ _ _ (by rwa [View.setOn_univ])]
        refine ih (Nat.le_of_lt hn') G₀ hG₀ i ?_
        by_contra hcon
        refine hin ((mem_blk8 ⟨n, hn'⟩ i).mpr fun a => ?_)
        match a with
        | ⟨0, _⟩ =>
          show win0_8.index ⟨n, hn'⟩ (0 : Fin 2) * 400 ≤ (i 0).val ∧ (i 0).val < win0_8.index ⟨n, hn'⟩ (0 : Fin 2) * 400 + 400
          rw [e0]; omega
        | ⟨1, _⟩ =>
          show win0_8.index ⟨n, hn'⟩ (1 : Fin 2) * 256 ≤ (i 1).val ∧ (i 1).val < win0_8.index ⟨n, hn'⟩ (1 : Fin 2) * 256 + 256
          rw [e1]; omega

/-- Whatever the output array may hold after every write-back, it holds the 25 row blocks the second pass stored. -/
theorem arrAt_out (c : Dev nD)
    (Fb : Buf (Elt F) ((cfg0.win 8).arr.view.loc (c.tc : Thread nD τ))) (h : (rdat m c).ArrAt 8 cfg0.N Fb) : Fb = outAll m c :=
  funext fun i => last_writer m c cfg0.N (Nat.le_refl _) Fb h i (by rw [N50]; have := row_lt i; omega)

end Cert.KernelIdeal.Hand

end
-- ==== Proof.Spec.lean ====
/-
  The function both programs compute, written once over the extended reals.

  With `X` the node features (10000 × 256), `A` the dense propagation matrix (10000 × 10000), weights `W0`, `W1`
  (256 × 256), `Wp` (512 × 256) and biases `b0`, `b1`, `bp` (256):
  * `mm X W` is the plain matrix product, entry `(r, c)` the sum over `k` of `X (r, k) · W (k, c)`;
  * `layer A T b` is one propagation step, entry `(r, c)` the maximum of `(∑ k, A (r, k) · T (k, c)) + b c` and `0`;
  * `h1 = layer A (mm X W0) b0`, `h2 = layer A (mm h1 W1) b1`;
  * the head multiplies the two hidden layers laid side by side by `Wp`: rows `0 … 255` of `Wp` (`top Wp`) meet `h1`,
    rows `256 … 511` (`bot Wp`) meet `h2`; `out (r, c) = ((mm h2 (bot Wp)) (r, c) + (mm h1 (top Wp)) (r, c)) + bp c`.
  Nothing here asks an entry to be finite: sums and products are those of the extended reals.
-/
import Idealize.ShloMosaic.PureOps.Ideal
import Idealize.ShloMosaic.Lib.ValueIdx

noncomputable section

open scoped BigOperators

namespace Cert.Proof.Gcn

open Idealize.ShloMosaic Idealize.ShloMosaic.ValueIdx

/-- An `n × d` array of extended reals, indexed as the printed programs index theirs. -/
abbrev Mat (n d : ℕ) : Type := (⟨2, ![n, d]⟩ : Shape).Idx → EReal

/-- A vector of `d` extended reals. -/
abbrev Vc (d : ℕ) : Type := (⟨1, ![d]⟩ : Shape).Idx → EReal

/-- The plain matrix product. -/
def mm {n k d : ℕ} (X : Mat n k) (W : Mat k d) : Mat n d :=
  fun i => ∑ j : Fin k, X (ix2 (i 0) j) * W (ix2 j (i 1))

/-- One propagation step: `max ((∑ k, A (r, k) · T (k, c)) + b c) 0`. -/
def layer {n k d : ℕ} (A : Mat n k) (T : Mat k d) (b : Vc d) : Mat n d :=
  fun i => max ((∑ j : Fin k, A (ix2 (i 0) j) * T (ix2 j (i 1))) + b (ix1 (i 1))) 0

/-- Rows `0 … 255` of the head's weights. -/
def top (Wp : Mat 512 256) : Mat 256 256 :=
  fun i => Wp (ix2 (⟨(i 0).val, by have h : (i 0).val < 256 := (i 0).isLt; omega⟩ : Fin 512) (i 1))

/-- Rows `256 … 511` of the head's weights. -/
def bot (Wp : Mat 512 256) : Mat 256 256 :=
  fun i => Wp (ix2 (⟨256 + (i 0).val, by have h : (i 0).val < 256 := (i 0).isLt; omega⟩ : Fin 512) (i 1))

/-- The first hidden layer. -/
def h1 (X : Mat 10000 256) (A : Mat 10000 10000) (W0 : Mat 256 256) (b0 : Vc 256) : Mat 10000 256 :=
  layer A (mm X W0) b0

/-- The second hidden layer. -/
def h2 (X : Mat 10000 256) (A : Mat 10000 10000) (W0 : Mat 256 256) (b0 : Vc 256) (W1 : Mat 256 256) (b1 : Vc 256) :
    Mat 10000 256 :=
  layer A (mm (h1 X A W0 b0) W1) b1

/-- The network's output. -/
def out (X : Mat 10000 256) (A : Mat 10000 10000) (W0 : Mat 256 256) (b0 : Vc 256) (W1 : Mat 256 256) (b1 : Vc 256)
    (Wp : Mat 512 256) (bp : Vc 256) : Mat 10000 256 :=
  fun i => (mm (h2 X A W0 b0 W1 b1) (bot Wp) i + mm (h1 X A W0 b0) (top Wp) i) + bp (ix1 (i 1))

end Cert.Proof.Gcn

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.PayAt.lean ====
/-
  The body's arithmetic read at an index, over the extended reals.

  Each of the body's stored values is a composition of plain matrix products into a zero accumulator, a row of
  biases broadcast over the rows, additions, a maximum with zero and changes of float format. Over the extended
  reals the format changes are the identity, the zero word is `0`, and a plain `M × K` by `K × N` product read at
  `(r, c)` is `∑ k, X (r, k) · W (k, c)`; so each stored value, read at `(r, c)`, is the textbook formula in the
  arrays it was computed from.
-/
import proofs.«166813_g11562051961570_week1_w4_920_18_alg».proof.Proof.Gen.KernelIdeal.Skeleton
import proofs.«166813_g11562051961570_week1_w4_920_18_alg».proof.Proof.Spec
import proofs.«166813_g11562051961570_week1_w4_920_18_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.PayAt

open Cert.KernelIdeal Cert.KernelIdeal.Gen Idealize.ShloMosaic Idealize.ShloMosaic.ValueIdx

/-! ## The three dimension records are the plain ones -/

/-- `10000 × 256` by `256 × 256`: contract the left's columns with the right's rows. -/
theorem dot_feat : dot_S10000x256_S256x256_S10000x256_1_0_0_1_n_n = DotDims.plain 10000 256 256 := rfl

/-- `400 × 10000` by `10000 × 256`. -/
theorem dot_prop : dot_S400x10000_S10000x256_S400x256_1_0_0_1_n_n = DotDims.plain 400 10000 256 := rfl

/-- `400 × 256` by `256 × 256`. -/
theorem dot_hid : dot_S400x256_S256x256_S400x256_1_0_0_1_n_n = DotDims.plain 400 256 256 := rfl

/-! ## The products into the zero accumulator, with the program's records -/

/-- The feature product read at `(r, c)`. -/
theorem matmul_feat {φ₁ φ₂ : FTy} (X : FVec Ideal S10000x256 φ₁) (W : FVec Ideal S256x256 φ₂) (r : Fin 10000) (c : Fin 256) :
    matmul dot_S10000x256_S256x256_S10000x256_1_0_0_1_n_n none X W (constant S10000x256 .f32 0x00000000#32) (ix2 r c)
      = ∑ k : Fin 256, X (ix2 r k) * W (ix2 k c) := by
  rw [dot_feat]
  exact Cert.Proof.PlainDot.matmul_plain_zero none X W (ix2 r c)

/-- The propagation product read at `(p, c)`. -/
theorem matmul_prop {φ₁ φ₂ : FTy} (X : FVec Ideal S400x10000 φ₁) (W : FVec Ideal S10000x256 φ₂) (p : Fin 400) (c : Fin 256) :
    matmul dot_S400x10000_S10000x256_S400x256_1_0_0_1_n_n none X W (constant S400x256 .f32 0x00000000#32) (ix2 p c)
      = ∑ k : Fin 10000, X (ix2 p k) * W (ix2 k c) := by
  rw [dot_prop]
  exact Cert.Proof.PlainDot.matmul_plain_zero none X W (ix2 p c)

/-- The hidden-layer product read at `(p, c)`. -/
theorem matmul_hid {φ₁ φ₂ : FTy} (X : FVec Ideal S400x256 φ₁) (W : FVec Ideal S256x256 φ₂) (p : Fin 400) (c : Fin 256) :
    matmul dot_S400x256_S256x256_S400x256_1_0_0_1_n_n none X W (constant S400x256 .f32 0x00000000#32) (ix2 p c)
      = ∑ k : Fin 256, X (ix2 p k) * W (ix2 k c) := by
  rw [dot_hid]
  exact Cert.Proof.PlainDot.matmul_plain_zero none X W (ix2 p c)

/-- A row of biases cast to its own shape and broadcast over `400` rows reads, at `(p, c)`, the bias at `c`. -/
theorem bias_row (b : FVec Ideal S1x256 .f32) (p : Fin 400) (c : Fin 256) :
    broadcastTo S400x256 (shapeCast S1x256 b shapeCasts_S1x256_S1x256) broadcasts_S1x256_S400x256 (ix2 p c)
      = b (ix2 (0 : Fin 1) c) := by
  rw [shapeCast_self]
  exact broadcastTo_1b_ab_apply b broadcasts_S1x256_S400x256 p c

/-! ## The stored values at an index -/

/-- The projected features: `(x · w0) (r, c)`. -/
theorem pay2_apply (w0 : Vec Ideal S256x256 .f32) (x : Vec Ideal S10000x256 .bf16) (r : Fin 10000) (c : Fin 256) :
    k0_pay2 (F := Ideal) w0 x (ix2 r c) = ∑ k : Fin 256, x (ix2 r k) * w0 (ix2 k c) := by
  unfold k0_pay2
  rw [shapeCast_self, shapeCast_self]
  refine Eq.trans (truncf_apply (s := S10000x256) (φ := .f32) (ψ := .bf16) _ bitsLt_bf16_f32 (ix2 r c)) ?_
  exact matmul_feat (φ₁ := .bf16) (φ₂ := .bf16) x (truncf .bf16 w0 bitsLt_bf16_f32) r c

/-- One propagation step: `max ((s · t) (p, c) + b c) 0`. -/
theorem pay3_apply (s : Vec Ideal S400x10000 .f32) (t : Vec Ideal S10000x256 .bf16) (b : Vec Ideal S1x256 .f32)
    (p : Fin 400) (c : Fin 256) :
    k0_pay3 (F := Ideal) s t b (ix2 p c)
      = max ((∑ k : Fin 10000, s (ix2 p k) * t (ix2 k c)) + b (ix2 (0 : Fin 1) c)) 0 := by
  unfold k0_pay3 k0_pay1
  show max (_ + _) (Ideal.ofBits .f32 0x00000000#32) = _
  rw [Ideal.ofBits_zero_f32]
  exact congrArg (max · 0) (congrArg₂ (· + ·) (matmul_prop (truncf .bf16 s bitsLt_bf16_f32) t p c) (bias_row b p c))

/-- The step's result times a `256 × 256` weight. -/
theorem pay4_apply (s : Vec Ideal S400x10000 .f32) (t : Vec Ideal S10000x256 .bf16) (b : Vec Ideal S1x256 .f32)
    (w : Vec Ideal S256x256 .f32) (p : Fin 400) (c : Fin 256) :
    k0_pay4 (F := Ideal) s t b w (ix2 p c) = ∑ k : Fin 256, k0_pay3 (F := Ideal) s t b (ix2 p k) * w (ix2 k c) := by
  unfold k0_pay4
  rw [shapeCast_self]
  refine Eq.trans (truncf_apply (s := S400x256) (φ := .f32) (ψ := .bf16) _ bitsLt_bf16_f32 (ix2 p c)) ?_
  exact matmul_hid (φ₁ := .f32) (φ₂ := .f32) (k0_pay3 (F := Ideal) s t b) w p c

/-- The same with the other weight. -/
theorem pay5_apply (s : Vec Ideal S400x10000 .f32) (t : Vec Ideal S10000x256 .bf16) (b : Vec Ideal S1x256 .f32)
    (w : Vec Ideal S256x256 .f32) (p : Fin 400) (c : Fin 256) :
    k0_pay5 (F := Ideal) s t b w (ix2 p c) = ∑ k : Fin 256, k0_pay3 (F := Ideal) s t b (ix2 p k) * w (ix2 k c) := by
  unfold k0_pay5
  rw [shapeCast_self]
  refine Eq.trans (truncf_apply (s := S400x256) (φ := .f32) (ψ := .bf16) _ bitsLt_bf16_f32 (ix2 p c)) ?_
  exact matmul_hid (φ₁ := .f32) (φ₂ := .f32) (k0_pay3 (F := Ideal) s t b) w p c

/-- The network's output block: the second step's result times the lower weight, plus the stored upper product, plus
    the head's bias. -/
theorem pay6_apply (s : Vec Ideal S400x10000 .f32) (t1 : Vec Ideal S10000x256 .bf16) (b1 : Vec Ideal S1x256 .f32)
    (wq : Vec Ideal S256x256 .f32) (pb : Vec Ideal S400x256 .bf16) (bp : Vec Ideal S1x256 .f32) (p : Fin 400) (c : Fin 256) :
    k0_pay6 (F := Ideal) s t1 b1 wq pb bp (ix2 p c)
      = ((∑ k : Fin 256, max ((∑ j : Fin 10000, s (ix2 p j) * t1 (ix2 j k)) + b1 (ix2 (0 : Fin 1) k)) 0 * wq (ix2 k c))
          + pb (ix2 p c)) + bp (ix2 (0 : Fin 1) c) := by
  have hstep : ∀ k : Fin 256,
      maximumf (addf (matmul dot_S400x10000_S10000x256_S400x256_1_0_0_1_n_n none (k0_pay1 (F := Ideal) s) t1
            (constant S400x256 .f32 0x00000000#32))
          (broadcastTo S400x256 (shapeCast S1x256 b1 shapeCasts_S1x256_S1x256) broadcasts_S1x256_S400x256))
        (broadcast S400x256 (Scalar.ofBits (F := Ideal) .f32 0x00000000#32)) (ix2 p k)
        = max ((∑ j : Fin 10000, s (ix2 p j) * t1 (ix2 j k)) + b1 (ix2 (0 : Fin 1) k)) 0 := fun k => pay3_apply s t1 b1 p k
  unfold k0_pay6
  refine congrArg₂ (· + ·) (congrArg₂ (· + ·) ?_ rfl) (bias_row bp p c)
  refine (matmul_hid (φ₁ := .f32) (φ₂ := .f32) _ wq p c).trans ?_
  exact Finset.sum_congr rfl fun k _ => congrArg (· * wq (ix2 k c)) (hstep k)

end Cert.KernelIdeal.PayAt

end
-- ==== Proof.KIdeal.lean ====
/-
  The kernel's output array is the network function of the launch arrays.

  The body's stored values were read at an index in the arrays they are computed from; here each of those arrays is
  identified: the staged blocks are the launch arrays (the propagation matrix in 400-row blocks, the others whole,
  the three bias rows the bias vectors laid as one row, the features unchanged by the change of format), the first
  scratch buffer is `mm X W0`, the other two hold `mm h1 W1` and `mm h1 (top Wp)` row block by row block, and the
  second pass's stored block is the matching row block of `out`. Both sides are the same expression in the same order:
  no entry is asked to be finite and no sum is rearranged.
-/
import proofs.«166813_g11562051961570_week1_w4_920_18_alg».proof.Proof.KDefs
import proofs.«166813_g11562051961570_week1_w4_920_18_alg».proof.Proof.PayAt
import proofs.«166813_g11562051961570_week1_w4_920_18_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen
open Idealize.ShloMosaic.ValueIdx Idealize.ShloMosaic.StableHlo

variable (m : (ℓ : Loc nD τ sig) → Buf (Elt Ideal) ℓ)

/-! ## The arrays a host operation wrote before the region -/

/-- The first bias row, as the region finds it: the first bias vector laid as one row. -/
theorem V_b0 (c : Dev nD) : (V m c main_call0_v0 : S1x256.Idx → EReal)
    = shapeCast S1x256 (m ((c : Thread nD τ).loc main_arg3) : S256.Idx → EReal) shapeCasts_S256_S1x256 := by
  dsimp only [Gen.V, Gen.hostOps0]; after_results; rfl

/-- The second bias row. -/
theorem V_b1 (c : Dev nD) : (V m c main_call0_v1 : S1x256.Idx → EReal)
    = shapeCast S1x256 (m ((c : Thread nD τ).loc main_arg5) : S256.Idx → EReal) shapeCasts_S256_S1x256 := by
  dsimp only [Gen.V, Gen.hostOps0]; after_results; rfl

/-- The head's bias row. -/
theorem V_bp (c : Dev nD) : (V m c main_call0_v2 : S1x256.Idx → EReal)
    = shapeCast S1x256 (m ((c : Thread nD τ).loc main_arg7) : S256.Idx → EReal) shapeCasts_S256_S1x256 := by
  dsimp only [Gen.V, Gen.hostOps0]; after_results; rfl

/-- The features in the narrower format: over the extended reals, the features. -/
theorem V_x (c : Dev nD) : (V m c main_call0_v3 : S10000x256.Idx → EReal)
    = (m ((c : Thread nD τ).loc main_arg0) : S10000x256.Idx → EReal) := by
  dsimp only [Gen.V, Gen.hostOps0]; after_results; rfl

/-! ## The windows' blocks -/

/-- The propagation matrix's block index: the first pass goes down the row blocks, the second comes back up. -/
theorem idxA : ∀ t : Fin cfg0.N,
    win0_0.index t (0 : Fin 2) = (if t.val < 25 then t.val else 49 - t.val) ∧ win0_0.index t (1 : Fin 2) = 0 :=
  (by decide +kernel : ∀ t : Fin grid0.N,
    win0_0.index t (0 : Fin 2) = (if t.val < 25 then t.val else 49 - t.val) ∧ win0_0.index t (1 : Fin 2) = 0)

/-- Row `p` of the propagation matrix's block at point `t` is row `400 b + p` of the matrix, `b` the block index. -/
theorem blkA_apply (c : Dev nD) (t : Fin cfg0.N) (p : Fin 400) (k : Fin 10000) (r : Fin 10000)
    (hr : r.val = win0_0.index t (0 : Fin 2) * 400 + p.val) :
    (iblk m c 0 t : S400x10000.Idx → EReal) (ix2 p k)
      = (m ((c : Thread nD τ).loc main_arg1) : S10000x10000.Idx → EReal) (ix2 r k) := by
  show V m c main_arg1 (((cfg0.win 0).blk t).view.emb (ix2 p k)) = _
  rw [V_main_arg1]
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; have := (idxA t).2; omega

/-- The other windows stage their whole arrays: block index zero on both axes, at every point. -/
theorem idxW : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0))

/-- The features' block is the features. -/
theorem blkX (c : Dev nD) (t : Fin cfg0.N) :
    (iblk m c 1 t : S10000x256.Idx → EReal) = (m ((c : Thread nD τ).loc main_arg0) : S10000x256.Idx → EReal) := by
  funext y
  show V m c main_call0_v3 (((cfg0.win 1).blk t).view.emb y) = _
  rw [V_x]
  refine congrArg _ (funext fun a => Fin.ext ?_)
  obtain ⟨⟨e0, e1⟩, -⟩ := idxW t
  match a with
  | ⟨0, _⟩ => show win0_1.index t (0 : Fin 2) * 10000 + 1 * (y 0).val = (y 0).val; omega
  | ⟨1, _⟩ => show win0_1.index t (1 : Fin 2) * 256 + 1 * (y 1).val = (y 1).val; omega

/-- The first weight's block is the first weight. -/
theorem blkW0 (c : Dev nD) (t : Fin cfg0.N) :
    (iblk m c 2 t : S256x256.Idx → EReal) = (m ((c : Thread nD τ).loc main_arg2) : S256x256.Idx → EReal) := by
  funext y
  show V m c main_arg2 (((cfg0.win 2).blk t).view.emb y) = _
  rw [V_main_arg2]
  refine congrArg _ (funext fun a => Fin.ext ?_)
  obtain ⟨-, ⟨e0, e1⟩, -⟩ := idxW t
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The first bias row's block is the first bias vector laid as one row. -/
theorem blkB0 (c : Dev nD) (t : Fin cfg0.N) :
    (iblk m c 3 t : S1x256.Idx → EReal)
      = shapeCast S1x256 (m ((c : Thread nD τ).loc main_arg3) : S256.Idx → EReal) shapeCasts_S256_S1x256 := by
  funext y
  show V m c main_call0_v0 (((cfg0.win 3).blk t).view.emb y) = _
  rw [V_b0]
  refine congrArg _ (funext fun a => Fin.ext ?_)
  obtain ⟨-, -, ⟨e0, e1⟩, -⟩ := idxW t
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The second weight's block is the second weight. -/
theorem blkW1 (c : Dev nD) (t : Fin cfg0.N) :
    (iblk m c 4 t : S256x256.Idx → EReal) = (m ((c : Thread nD τ).loc main_arg4) : S256x256.Idx → EReal) := by
  funext y
  show V m c main_arg4 (((cfg0.win 4).blk t).view.emb y) = _
  rw [V_main_arg4]
  refine congrArg _ (funext fun a => Fin.ext ?_)
  obtain ⟨-, -, -, ⟨e0, e1⟩, -⟩ := idxW t
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The second bias row's block is the second bias vector laid as one row. -/
theorem blkB1 (c : Dev nD) (t : Fin cfg0.N) :
    (iblk m c 5 t : S1x256.Idx → EReal)
      = shapeCast S1x256 (m ((c : Thread nD τ).loc main_arg5) : S256.Idx → EReal) shapeCasts_S256_S1x256 := by
  funext y
  show V m c main_call0_v1 (((cfg0.win 5).blk t).view.emb y) = _
  rw [V_b1]
  refine congrArg _ (funext fun a => Fin.ext ?_)
  obtain ⟨-, -, -, -, ⟨e0, e1⟩, -⟩ := idxW t
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- The head's weight's block is the head's weight. -/
theorem blkWp (c : Dev nD) (t : Fin cfg0.N) :
    (iblk m c 6 t : S512x256.Idx → EReal) = (m ((c : Thread nD τ).loc main_arg6) : S512x256.Idx → EReal) := by
  funext y
  show V m c main_arg6 (((cfg0.win 6).blk t).view.emb y) = _
  rw [V_main_arg6]
  refine congrArg _ (funext fun a => Fin.ext ?_)
  obtain ⟨-, -, -, -, -, ⟨e0, e1⟩, -⟩ := idxW t
  match a with
  | ⟨0, _⟩ => show win0_6.index t (0 : Fin 2) * 512 + 1 * (y 0).val = (y 0).val; omega
  | ⟨1, _⟩ => show win0_6.index t (1 : Fin 2) * 256 + 1 * (y 1).val = (y 1).val; omega

/-- The head's bias row's block is the head's bias vector laid as one row. -/
theorem blkBp (c : Dev nD) (t : Fin cfg0.N) :
    (iblk m c 7 t : S1x256.Idx → EReal)
      = shapeCast S1x256 (m ((c : Thread nD τ).loc main_arg7) : S256.Idx → EReal) shapeCasts_S256_S1x256 := by
  funext y
  show V m c main_call0_v2 (((cfg0.win 7).blk t).view.emb y) = _
  rw [V_bp]
  refine congrArg _ (funext fun a => Fin.ext ?_)
  obtain ⟨-, -, -, -, -, -, e0, e1⟩ := idxW t
  match a with
  | ⟨0, _⟩ => show win0_7.index t (0 : Fin 2) * 1 + 1 * (y 0).val = (y 0).val; omega
  | ⟨1, _⟩ => show win0_7.index t (1 : Fin 2) * 256 + 1 * (y 1).val = (y 1).val; omega

/-- A bias vector laid as one row, read at column `q`, is the vector at `q`. -/
theorem biasRow_apply (b : S256.Idx → EReal) (q : Fin 256) :
    shapeCast S1x256 b shapeCasts_S256_S1x256 (ix2 (0 : Fin 1) q) = b (ix1 q) :=
  shapeCast_a_1a_apply b shapeCasts_S256_S1x256 0 q

/-! ## Parts of a staged block at an index -/

/-- Row `k` of the upper half of the head's weight is its row `k`. -/
theorem topRows_apply (x : Vec Ideal S512x256 .f32) (k q : Fin 256) (r : Fin 512) (hr : r.val = k.val) :
    topRows x (ix2 k q) = x (ix2 r q) := by
  show x ((Rect.unit (s := S512x256) ![0, 0] S256x256.size inb_S512x256_S256x256_0_0).emb (ix2 k q)) = _
  refine congrArg x (funext fun a => Fin.ext ?_)
  match a with
  | ⟨0, _⟩ => show 0 + 1 * k.val = r.val; omega
  | ⟨1, _⟩ => show 0 + 1 * q.val = q.val; omega

/-- Row `k` of the lower half of the head's weight is its row `256 + k`. -/
theorem botRows_apply (x : Vec Ideal S512x256 .f32) (k q : Fin 256) (r : Fin 512) (hr : r.val = 256 + k.val) :
    botRows x (ix2 k q) = x (ix2 r q) := by
  show x ((Rect.unit (s := S512x256) ![256, 0] S256x256.size inb_S512x256_S256x256_256_0).emb (ix2 k q)) = _
  refine congrArg x (funext fun a => Fin.ext ?_)
  match a with
  | ⟨0, _⟩ => show 256 + 1 * k.val = r.val; omega
  | ⟨1, _⟩ => show 0 + 1 * q.val = q.val; omega

/-- Row `p` of the row block the second pass reads at grid point `i` is row `9600 - 400 i₁ + p` of the buffer. -/
theorem rowBlock_apply (i : grid0.Coords) (h : passTwo i) (y : Vec Ideal S10000x256 .bf16) (p : Fin 400) (q : Fin 256)
    (r : Fin 10000) (hr : r.val = 9600 - 400 * (i 1).val + p.val) :
    rowBlock i h y (ix2 p q) = y (ix2 r q) := by
  show y ((Rect.unit (s := S10000x256) (k0_off2 i) S400x256.size (k0_off2_inb i h)).emb (ix2 p q)) = _
  refine congrArg y (funext fun a => Fin.ext ?_)
  have e0 : k0_off2 i (0 : Fin 2) = 9600 - 400 * (i 1).val := congrFun (k0_off2_eq i) 0
  have e1 : k0_off2 i (1 : Fin 2) = 0 := congrFun (k0_off2_eq i) 1
  match a with
  | ⟨0, _⟩ => show k0_off2 i (0 : Fin 2) + 1 * p.val = r.val; omega
  | ⟨1, _⟩ => show k0_off2 i (1 : Fin 2) + 1 * q.val = q.val; omega

/-! ## Two stages of the network over variables -/

/-- One propagation step on 400 rows: if row `p` of `s` is row `r` of `Am`, `t'` is `T` and `brow` is `b` laid as one
    row, then entry `(p, q)` of the step computed from `s`, `t'`, `brow` is entry `(r, q)` of `layer Am T b`. -/
theorem layer_rows (s : S400x10000.Idx → EReal) (t' : S10000x256.Idx → EReal) (brow : S1x256.Idx → EReal)
    (Am : S10000x10000.Idx → EReal) (T : S10000x256.Idx → EReal) (b : S256.Idx → EReal)
    (p : Fin 400) (q : Fin 256) (r : Fin 10000)
    (hs : ∀ k : Fin 10000, s (ix2 p k) = Am (ix2 r k)) (ht : t' = T)
    (hb : brow = shapeCast S1x256 b shapeCasts_S256_S1x256) :
    max ((∑ k : Fin 10000, s (ix2 p k) * t' (ix2 k q)) + brow (ix2 (0 : Fin 1) q)) 0
      = Cert.Proof.Gcn.layer Am T b (ix2 r q) := by
  subst ht; subst hb
  exact congrArg (max · 0) (congrArg₂ (· + ·)
    (Finset.sum_congr rfl fun k _ => congrArg (· * t' (ix2 k q)) (hs k)) (biasRow_apply b q))

/-- A product on 400 rows: if row `p` of `h` is row `r` of `H` and column `q` of `w` is column `q` of `W`, then entry
    `(p, q)` of the product of `h` and `w` is entry `(r, q)` of `mm H W`. -/
theorem mm_rows (h : S400x256.Idx → EReal) (w : S256x256.Idx → EReal) (H : S10000x256.Idx → EReal)
    (W : S256x256.Idx → EReal) (p : Fin 400) (q : Fin 256) (r : Fin 10000)
    (hh : ∀ k : Fin 256, h (ix2 p k) = H (ix2 r k)) (hw : ∀ k : Fin 256, w (ix2 k q) = W (ix2 k q)) :
    ∑ k : Fin 256, h (ix2 p k) * w (ix2 k q) = Cert.Proof.Gcn.mm H W (ix2 r q) :=
  Finset.sum_congr rfl fun k _ => congrArg₂ (· * ·) (hh k) (hw k)

/-! ## The stored values are the network's stages -/

/-- The launch arrays, named as the network function names them. -/
abbrev aX (c : Dev nD) : S10000x256.Idx → EReal := m ((c : Thread nD τ).loc main_arg0)
abbrev aA (c : Dev nD) : S10000x10000.Idx → EReal := m ((c : Thread nD τ).loc main_arg1)
abbrev aW0 (c : Dev nD) : S256x256.Idx → EReal := m ((c : Thread nD τ).loc main_arg2)
abbrev aB0 (c : Dev nD) : S256.Idx → EReal := m ((c : Thread nD τ).loc main_arg3)
abbrev aW1 (c : Dev nD) : S256x256.Idx → EReal := m ((c : Thread nD τ).loc main_arg4)
abbrev aB1 (c : Dev nD) : S256.Idx → EReal := m ((c : Thread nD τ).loc main_arg5)
abbrev aWp (c : Dev nD) : S512x256.Idx → EReal := m ((c : Thread nD τ).loc main_arg6)
abbrev aBp (c : Dev nD) : S256.Idx → EReal := m ((c : Thread nD τ).loc main_arg7)

/-- The first hidden layer of the launch arrays. -/
abbrev aH1 (c : Dev nD) : S10000x256.Idx → EReal := Cert.Proof.Gcn.h1 (aX m c) (aA m c) (aW0 m c) (aB0 m c)

/-- The first scratch buffer holds the projected features. -/
theorem prodXW_eq (c : Dev nD) : (prodXW m c : S10000x256.Idx → EReal) = Cert.Proof.Gcn.mm (aX m c) (aW0 m c) := by
  funext j
  obtain ⟨r, q, rfl⟩ : ∃ (r : Fin 10000) (q : Fin 256), j = ix2 r q := ⟨j 0, j 1, eq_ix2 j⟩
  unfold prodXW
  refine (Cert.KernelIdeal.PayAt.pay2_apply _ _ r q).trans ?_
  exact Finset.sum_congr rfl fun k _ =>
    congrArg₂ (· * ·) (congrFun (blkX m c pt0) (ix2 r k)) (congrFun (blkW0 m c pt0) (ix2 k q))

/-- The first hidden layer on a row block: row `p` of the step at point `t` is row `400 b + p` of `h1`, `b` the block
    index at `t`. -/
theorem hid_step (c : Dev nD) (t : Fin cfg0.N) (p : Fin 400) (q : Fin 256) (r : Fin 10000)
    (hr : r.val = win0_0.index t (0 : Fin 2) * 400 + p.val) :
    k0_pay3 (F := Ideal) (iblk m c 0 t) (prodXW m c) (iblk m c 3 t) (ix2 p q) = aH1 m c (ix2 r q) := by
  refine (Cert.KernelIdeal.PayAt.pay3_apply _ _ _ p q).trans ?_
  exact layer_rows (iblk m c 0 t) (prodXW m c) (iblk m c 3 t) (aA m c) (Cert.Proof.Gcn.mm (aX m c) (aW0 m c)) (aB0 m c)
    p q r (fun k => blkA_apply m c t p k r hr) (prodXW_eq m c) (blkB0 m c t)

/-- In the first pass the propagation matrix's block index is the point's number: the point that stores row `r` has
    block index `r / 400`. -/
theorem idxA_first (r : Fin 10000) (q : Fin 256) :
    r.val = win0_0.index (ptOfRow (ix2 r q)) (0 : Fin 2) * 400 + (inBlock (ix2 r q)).val := by
  have hlt : (ptOfRow (ix2 r q)).val < 25 := by show r.val / 400 < 25; have := r.isLt; omega
  have hi : win0_0.index (ptOfRow (ix2 r q)) (0 : Fin 2) = (ptOfRow (ix2 r q)).val := by
    rw [(idxA (ptOfRow (ix2 r q))).1, if_pos hlt]
  rw [hi]
  show r.val = r.val / 400 * 400 + r.val % 400
  omega

/-- The second scratch buffer, once the first pass is over, holds the first hidden layer times `W1`. -/
theorem hidAll_eq (c : Dev nD) :
    (hidAll m c : S10000x256.Idx → EReal) = Cert.Proof.Gcn.mm (aH1 m c) (aW1 m c) := by
  funext j
  obtain ⟨r, q, rfl⟩ : ∃ (r : Fin 10000) (q : Fin 256), j = ix2 r q := ⟨j 0, j 1, eq_ix2 j⟩
  unfold hidAll hidAt
  refine (Cert.KernelIdeal.PayAt.pay4_apply _ _ _ _ (inBlock (ix2 r q)) (colOf (ix2 r q))).trans ?_
  exact mm_rows _ (iblk m c 4 (ptOfRow (ix2 r q))) (aH1 m c) (aW1 m c) (inBlock (ix2 r q)) q r
    (fun k => hid_step m c _ _ k r (idxA_first r q)) (fun k => congrFun (blkW1 m c _) (ix2 k q))

/-- The third scratch buffer, once the first pass is over, holds the first hidden layer times the upper half of the
    head's weight. -/
theorem headAll_eq (c : Dev nD) :
    (headAll m c : S10000x256.Idx → EReal) = Cert.Proof.Gcn.mm (aH1 m c) (Cert.Proof.Gcn.top (aWp m c)) := by
  funext j
  obtain ⟨r, q, rfl⟩ : ∃ (r : Fin 10000) (q : Fin 256), j = ix2 r q := ⟨j 0, j 1, eq_ix2 j⟩
  unfold headAll headAt
  refine (Cert.KernelIdeal.PayAt.pay5_apply _ _ _ _ (inBlock (ix2 r q)) (colOf (ix2 r q))).trans ?_
  exact mm_rows _ (topRows (iblk m c 6 (ptOfRow (ix2 r q)))) (aH1 m c) (Cert.Proof.Gcn.top (aWp m c))
    (inBlock (ix2 r q)) q r (fun k => hid_step m c _ _ k r (idxA_first r q))
    (fun k => (topRows_apply _ k q ⟨k.val, Nat.lt_of_lt_of_le k.isLt (by decide)⟩ rfl).trans
      (congrFun (blkWp m c _) _))

/-! ## The output array -/

/-- In the second pass the block index runs back: the point that stores row `r` has block index `r / 400`. -/
theorem idxA_second (r : Fin 10000) (q : Fin 256) :
    r.val = win0_0.index (ptOfRow2 (ix2 r q)) (0 : Fin 2) * 400 + (inBlock (ix2 r q)).val := by
  have hv : (ptOfRow2 (ix2 r q)).val = 49 - r.val / 400 := rfl
  have hge : ¬ (ptOfRow2 (ix2 r q)).val < 25 := by rw [hv]; have := r.isLt; omega
  have hi : win0_0.index (ptOfRow2 (ix2 r q)) (0 : Fin 2) = 49 - (ptOfRow2 (ix2 r q)).val := by
    rw [(idxA (ptOfRow2 (ix2 r q))).1, if_neg hge]
  rw [hi, hv]
  show r.val = (49 - (49 - r.val / 400)) * 400 + r.val % 400
  have := r.isLt
  omega

/-- The row block of the third scratch buffer that the second pass reads at the point that stores row `r` starts at
    row `400 (r / 400)`. -/
theorem rowOf_second (r : Fin 10000) (q : Fin 256) :
    r.val = 9600 - 400 * ((grid0.coords (ptOfRow2 (ix2 r q))) 1).val + (inBlock (ix2 r q)).val := by
  rw [coord_one (ptOfRow2 (ix2 r q))]
  show r.val = 9600 - 400 * ((49 - r.val / 400) % 25) + r.val % 400
  have := r.isLt
  omega

/-- The kernel's output array is the network function of the launch arrays. -/
theorem outAll_eq (c : Dev nD) :
    outAll (F := Ideal) m c
      = Cert.Proof.Gcn.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  funext j
  obtain ⟨r, q, rfl⟩ : ∃ (r : Fin 10000) (q : Fin 256), j = ix2 r q := ⟨j 0, j 1, eq_ix2 j⟩
  unfold outAll outAt
  refine (Cert.KernelIdeal.PayAt.pay6_apply _ _ _ _ _ _ (inBlock (ix2 r q)) (colOf (ix2 r q))).trans ?_
  show _ = ((∑ k : Fin 256, Cert.Proof.Gcn.layer (aA m c) (Cert.Proof.Gcn.mm (aH1 m c) (aW1 m c)) (aB1 m c) (ix2 r k)
                * Cert.Proof.Gcn.bot (aWp m c) (ix2 k q))
              + Cert.Proof.Gcn.mm (aH1 m c) (Cert.Proof.Gcn.top (aWp m c)) (ix2 r q)) + aBp m c (ix1 q)
  refine congrArg₂ (· + ·) (congrArg₂ (· + ·) (Finset.sum_congr rfl fun k _ => congrArg₂ (· * ·) ?_ ?_) ?_) ?_
  · exact layer_rows (iblk m c 0 (ptOfRow2 (ix2 r q))) (hidAll m c) (iblk m c 5 (ptOfRow2 (ix2 r q))) (aA m c)
      (Cert.Proof.Gcn.mm (aH1 m c) (aW1 m c)) (aB1 m c) (inBlock (ix2 r q)) k r
      (fun k' => blkA_apply m c _ _ k' r (idxA_second r q)) (hidAll_eq m c) (blkB1 m c _)
  · exact (botRows_apply _ k q ⟨256 + k.val, by have := k.isLt; omega⟩ rfl).trans (congrFun (blkWp m c _) _)
  · exact (rowBlock_apply _ _ (headAll m c) (inBlock (ix2 r q)) q r (rowOf_second r q)).trans
      (congrFun (headAll_eq m c) (ix2 r q))
  · exact (congrFun (blkBp m c _) _).trans (biasRow_apply (aBp m c) q)

end Cert.KernelIdeal.Hand

end
-- ==== Proof.KValue.lean ====
/-
  The idealized kernel's run with its result named: at the extended reals the output array ends at the network's
  output `Gcn.out` of the argument arrays, and the arguments end unchanged.

  The run's post gives the output array at SOME contents the relational proof data allows after every write-back; the
  last-writer argument identifies them with `outAll`, the 25 row blocks the second pass stores, and at the extended reals
  `outAll` is `Gcn.out` of the arguments, index by index.
-/
import proofs.«166813_g11562051961570_week1_w4_920_18_alg».proof.Proof.KData
import proofs.«166813_g11562051961570_week1_w4_920_18_alg».proof.Proof.KFinal
import proofs.«166813_g11562051961570_week1_w4_920_18_alg».proof.Proof.KIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.KernelIdeal Cert.KernelIdeal.Gen

/-- Every weakly fair execution of the idealized kernel's @main terminates with the result array at `Gcn.out` of the
    arguments and the arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Proof.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(arrAt_out m c _ ((h c).1 8)).trans (outAll_eq m c),
      ((h c).2 main_arg0 (Pipeline.mem_restRefs_of main_arg0 (by decide) (by decide))).trans (V_main_arg0 m c),
      (Eq.mp (congrFun ((rdat m c).ArrAt_in 0 rfl _) _) ((h c).1 0)).trans ((rdat_A m c 0).trans (V_main_arg1 m c)),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c),
      (Eq.mp (congrFun ((rdat m c).ArrAt_in 6 rfl _) _) ((h c).1 6)).trans ((rdat_A m c 6).trans (V_main_arg6 m c)),
      ((h c).2 main_arg7 (Pipeline.mem_restRefs_of main_arg7 (by decide) (by decide))).trans (V_main_arg7 m c)⟩) (run_main (F := Ideal) m ρ)

end Cert.KernelIdeal.Hand

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.RefValue.lean ====
/-
  The reference program's result, read over the extended reals, is the network function `Gcn.out`.

  Stage by stage: the first product is `mm X W0`; a product with the propagation matrix, plus a bias row repeated down
  the rows, then the maximum with zero, is one propagation step `layer`; so the two hidden layers are `h1` and `h2`.
  The head multiplies the two hidden layers laid side by side (10000 × 512) by `Wp` (512 × 256): a sum over 512
  contraction positions. Positions `0 … 255` read `h1` against rows `0 … 255` of `Wp`, positions `256 … 511` read `h2`
  against rows `256 … 511`; the sum over 512 positions is the sum of the two sums over 256 positions, and addition of
  extended reals commutes, which is the order `Gcn.out` writes them in. No entry is asked to be finite.
-/
import proofs.«166813_g11562051961570_week1_w4_920_18_alg».proof.Proof.Gen.ReferenceIdeal.Read
import proofs.«166813_g11562051961570_week1_w4_920_18_alg».proof.Proof.Spec
import proofs.«166813_g11562051961570_week1_w4_920_18_alg».proof.Proof.LibPlainDot
import proofs.«166813_g11562051961570_week1_w4_920_18_alg».proof.Proof.LibConcatAt

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Proof

/-- A sum over 512 positions is the sum over the first 256 plus the sum over the last 256. -/
theorem sum_split (f : Fin 512 → EReal) :
    ∑ k : Fin 512, f k
      = (∑ k : Fin 256, f ⟨k.val, Nat.lt_of_lt_of_le k.isLt (by decide)⟩)
        + ∑ k : Fin 256, f ⟨256 + k.val, by have h := k.isLt; omega⟩ :=
  Fin.sum_univ_add (a := 256) (b := 256) f

/-- The product of a 10000 × 256 array with a 256 × 256 one, at an index. -/
theorem dot256_apply (X : FVec Ideal S10000x256 .f32) (W : FVec Ideal S256x256 .f32) (i : S10000x256.Idx) :
    Host.dotGeneral dot_S10000x256_S256x256_S10000x256_1_0_0_1_n_n none X W i
      = ∑ k : Fin 256, X (ix2 (i 0) k) * W (ix2 k (i 1)) := by
  simp only [Host.dotGeneral]
  exact PlainDot.dotGeneral_plain (M := 10000) (K := 256) (N := 256) none _ X W i

/-- The product of the 10000 × 10000 propagation matrix with a 10000 × 256 array, at an index. -/
theorem dotA_apply (A : FVec Ideal S10000x10000 .f32) (T : FVec Ideal S10000x256 .f32) (i : S10000x256.Idx) :
    Host.dotGeneral dot_S10000x10000_S10000x256_S10000x256_1_0_0_1_n_n none A T i
      = ∑ k : Fin 10000, A (ix2 (i 0) k) * T (ix2 k (i 1)) := by
  simp only [Host.dotGeneral]
  exact PlainDot.dotGeneral_plain (M := 10000) (K := 10000) (N := 256) none _ A T i

/-- The product of a 10000 × 512 array with a 512 × 256 one, at an index. -/
theorem dot512_apply (E : FVec Ideal S10000x512 .f32) (W : FVec Ideal S512x256 .f32) (i : S10000x256.Idx) :
    Host.dotGeneral dot_S10000x512_S512x256_S10000x256_1_0_0_1_n_n none E W i
      = ∑ k : Fin 512, E (ix2 (i 0) k) * W (ix2 k (i 1)) := by
  simp only [Host.dotGeneral]
  exact PlainDot.dotGeneral_plain (M := 10000) (K := 512) (N := 256) none _ E W i

/-- A bias vector, made a one-row array and repeated down the 10000 rows, reads the vector at the column. -/
theorem bias_apply (b : FVec Ideal S256 .f32) (r : Fin 10000) (c : Fin 256) :
    broadcastInDim S10000x256 ![0, 1] bcast_S1x256_S10000x256_0_1 (broadcastInDim S1x256 ![1] bcast_S256_S1x256_1 b) (ix2 r c)
      = b (ix1 c) := by
  refine (val_main_v3_apply (F := Ideal) b (ix2 r c)).trans ?_
  refine (val_main_v2_apply (F := Ideal) b _).trans ?_
  exact congrArg b (funext fun a => Fin.ext (by match a with | ⟨0, _⟩ => rfl))

/-- The zero word, repeated over the whole array, is the extended real zero at every index. -/
theorem zeros_apply (i : S10000x256.Idx) :
    broadcastInDim S10000x256 ![] bcast_S_S10000x256 (constant (F := Ideal) S_ .f32 0x00000000#32) i = 0 := by
  refine (val_main_call0_v0_apply (F := Ideal) i).trans ?_
  exact Ideal.ofBits_zero_f32

/-- One propagation step as the program writes it: the product with the propagation matrix, plus the repeated bias,
    then the maximum with the zero array. -/
theorem layer_eq (A : FVec Ideal S10000x10000 .f32) (T : FVec Ideal S10000x256 .f32) (b : FVec Ideal S256 .f32) :
    maximumf (addf (Host.dotGeneral dot_S10000x10000_S10000x256_S10000x256_1_0_0_1_n_n none A T)
        (broadcastInDim S10000x256 ![0, 1] bcast_S1x256_S10000x256_0_1 (broadcastInDim S1x256 ![1] bcast_S256_S1x256_1 b)))
      (broadcastInDim S10000x256 ![] bcast_S_S10000x256 (constant (F := Ideal) S_ .f32 0x00000000#32))
    = Gcn.layer A T b := by
  funext i
  obtain ⟨r, c, rfl⟩ : ∃ (r : Fin 10000) (c : Fin 256), i = ix2 r c := ⟨i 0, i 1, eq_ix2 i⟩
  rw [maximumf_apply, addf_apply, dotA_apply, bias_apply, zeros_apply]
  rfl

/-- The first product is the plain matrix product. -/
theorem mm_eq (X : FVec Ideal S10000x256 .f32) (W : FVec Ideal S256x256 .f32) :
    Host.dotGeneral dot_S10000x256_S256x256_S10000x256_1_0_0_1_n_n none X W = Gcn.mm X W := by
  funext i
  rw [dot256_apply]
  rfl

/-- The head: the two hidden layers laid side by side, times `Wp`. The 512 contraction positions split at 256: the
    first 256 read the first layer against the upper rows of `Wp`, the last 256 the second layer against its lower
    rows; the two partial sums are then written in the other order, which addition allows. -/
theorem head_eq (H1 H2 : FVec Ideal S10000x256 .f32) (Wp : FVec Ideal S512x256 .f32) :
    Host.dotGeneral dot_S10000x512_S512x256_S10000x256_1_0_0_1_n_n none
        (concatenate S10000x512 1 [⟨S10000x256, H1⟩, ⟨S10000x256, H2⟩] concatenates_S10000x256_S10000x256_S10000x512_d1) Wp
      = fun i => Gcn.mm H2 (Gcn.bot Wp) i + Gcn.mm H1 (Gcn.top Wp) i := by
  funext i
  obtain ⟨r, c, rfl⟩ : ∃ (r : Fin 10000) (c : Fin 256), i = ix2 r c := ⟨i 0, i 1, eq_ix2 i⟩
  rw [dot512_apply, sum_split, add_comm]
  refine congrArg₂ (· + ·) (Finset.sum_congr rfl fun k _ => ?_) (Finset.sum_congr rfl fun k _ => ?_)
  · exact congrArg₂ (· * ·) (ConcatAt.pair_right H1 H2 _ _ r k rfl rfl) rfl
  · exact congrArg₂ (· * ·) (ConcatAt.pair_left H1 H2 _ _ r k rfl rfl) rfl

/-- The reference's result is the network function: each stage is the stage of `Gcn.out` it was written after. -/
theorem result_eq (x0 : FVec Ideal S10000x256 .f32) (x1 : FVec Ideal S10000x10000 .f32) (x2 : FVec Ideal S256x256 .f32)
    (x3 : FVec Ideal S256 .f32) (x4 : FVec Ideal S256x256 .f32) (x5 : FVec Ideal S256 .f32) (x6 : FVec Ideal S512x256 .f32)
    (x7 : FVec Ideal S256 .f32) :
    Cert.ReferenceIdeal.Read.val_main_v16 (F := Ideal) x0 x1 x2 x3 x4 x5 x6 x7 = Cert.Proof.Gcn.out x0 x1 x2 x3 x4 x5 x6 x7 := by
  have e0 : val_main_v0 (F := Ideal) x0 x2 = Gcn.mm x0 x2 := mm_eq x0 x2
  have e5 : val_main_v5 (F := Ideal) x0 x1 x2 x3 = Gcn.h1 x0 x1 x2 x3 := by
    refine (layer_eq x1 (val_main_v0 (F := Ideal) x0 x2) x3).trans ?_
    rw [e0]
    rfl
  have e6 : val_main_v6 (F := Ideal) x0 x1 x2 x3 x4 = Gcn.mm (Gcn.h1 x0 x1 x2 x3) x4 := by
    refine (mm_eq (val_main_v5 (F := Ideal) x0 x1 x2 x3) x4).trans ?_
    rw [e5]
  have e11 : val_main_v11 (F := Ideal) x0 x1 x2 x3 x4 x5 = Gcn.h2 x0 x1 x2 x3 x4 x5 := by
    refine (layer_eq x1 (val_main_v6 (F := Ideal) x0 x1 x2 x3 x4) x5).trans ?_
    rw [e6]
    rfl
  have e13 : val_main_v13 (F := Ideal) x0 x1 x2 x3 x4 x5 x6
      = fun i => Gcn.mm (Gcn.h2 x0 x1 x2 x3 x4 x5) (Gcn.bot x6) i + Gcn.mm (Gcn.h1 x0 x1 x2 x3) (Gcn.top x6) i := by
    refine (head_eq (val_main_v5 (F := Ideal) x0 x1 x2 x3) (val_main_v11 (F := Ideal) x0 x1 x2 x3 x4 x5) x6).trans ?_
    rw [e5, e11]
  funext i
  obtain ⟨r, c, rfl⟩ : ∃ (r : Fin 10000) (c : Fin 256), i = ix2 r c := ⟨i 0, i 1, eq_ix2 i⟩
  rw [val_main_v16_apply, e13, show val_main_v15 (F := Ideal) x7 (ix2 r c) = x7 (ix1 c) from bias_apply x7 r c]
  rfl

/-- Every weakly fair execution of the reference ends with its result buffer at the network function of the
    arguments' launch contents, the arguments unchanged. -/
theorem run_out (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v16)
          = Cert.Proof.Gcn.out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run Cert.ReferenceIdeal.defs _ _).mono
    (fun _ h c => ⟨(h c).1.trans ((val_main_v16_eq (F := Ideal) _ _ _ _ _ _ _ _).trans (result_eq _ _ _ _ _ _ _ _)), (h c).2⟩)
    (Cert.ReferenceIdeal.Value.run (F := Ideal) m ρ)

end Cert.ReferenceIdeal.RefValue

end
-- ==== Proof.lean ====
/-
  The certificate's claim: the kernel, its idealization and the idealized reference each run and leave their arguments
  unchanged, the idealization rewrote nothing, and at the extended reals the idealized kernel and the idealized reference
  end with the same result.

  The network is two propagation layers `h1 = max (A · (X · W0) + b0) 0`, `h2 = max (A · (h1 · W1) + b1) 0` and a linear head on
  the two layers laid side by side, `[h1 h2] · Wp + bp` (`Gcn.out`, Proof/Spec.lean). The kernel computes the head as
  `h2 · Wp[256:] + h1 · Wp[:256] + bp`, block of 400 rows by block, in two passes over the row blocks of `A` within one grid,
  keeping `X · W0`, `h1 · W1` and `h1 · Wp[:256]` in scratch buffers between the grid points; the reference computes one
  product with the 512-row `Wp`. On the extended reals the sum over 512 terms is the sum of its two halves and addition is
  commutative, so both are `Gcn.out` of the arguments — no entry is asked to be finite, and the precondition is never opened.
  The two kernels' frames are the frame run of the hand-written body obligation (Proof/KData.lean for the idealization,
  Proof/BData.lean for the kernel as printed: the same text at the other program), the reference's frame is its run with
  the result dropped.
-/
import proofs.«166813_g11562051961570_week1_w4_920_18_alg».proof.Defs
import proofs.«166813_g11562051961570_week1_w4_920_18_alg».proof.Proof.Gen.Kernel
import proofs.«166813_g11562051961570_week1_w4_920_18_alg».proof.Proof.Gen.KernelIdeal
import proofs.«166813_g11562051961570_week1_w4_920_18_alg».proof.Proof.Gen.ReferenceIdeal
import proofs.«166813_g11562051961570_week1_w4_920_18_alg».proof.Proof.Gen.Pre_finite_inputs
import proofs.«166813_g11562051961570_week1_w4_920_18_alg».proof.Proof.BData
import proofs.«166813_g11562051961570_week1_w4_920_18_alg».proof.Proof.KValue
import proofs.«166813_g11562051961570_week1_w4_920_18_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end at `Gcn.out` of their arguments, and the arguments agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Proof.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Hand.run_out m ρ, ?_⟩
  refine (θ_run Cert.ReferenceIdeal.defs _ _).mono (fun _ h c => ⟨(h c).1.trans ?_, (h c).2⟩) (Cert.ReferenceIdeal.RefValue.run_out m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
